-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_

variable [Facts]

def fn {F : FTy → Type} [FloatOps F] (main_arg0 : FVec F S8x32x32x32 .f32) (main_arg1 : FVec F S1x1x1x288x64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  main_v8
-- ==== Kernel.lean ====
abbrev S8x32x32x32 : Shape := ⟨4, ![8, 32, 32, 32]⟩
abbrev S1x1x1x288x64 : Shape := ⟨5, ![1, 1, 1, 288, 64]⟩
abbrev S288x64 : Shape := ⟨2, ![288, 64]⟩
abbrev S8x30x30x64 : Shape := ⟨4, ![8, 30, 30, 64]⟩
abbrev S1x32x32x32 : Shape := ⟨4, ![1, 32, 32, 32]⟩
abbrev S1x30x30x64 : Shape := ⟨4, ![1, 30, 30, 64]⟩
abbrev S32x32x32 : Shape := ⟨3, ![32, 32, 32]⟩
abbrev S30x30x128 : Shape := ⟨3, ![30, 30, 128]⟩
abbrev S30x30x32 : Shape := ⟨3, ![30, 30, 32]⟩
abbrev S1x64 : Shape := ⟨2, ![1, 64]⟩
abbrev S64 : Shape := ⟨1, ![64]⟩
abbrev S30x30x1 : Shape := ⟨3, ![30, 30, 1]⟩
abbrev S30x30 : Shape := ⟨2, ![30, 30]⟩
abbrev S1x1x64 : Shape := ⟨3, ![1, 1, 64]⟩
abbrev S30x30x64 : Shape := ⟨3, ![30, 30, 64]⟩

abbrev nBuf : Space → Nat
  | .hbm => 4
  | .vmem => 5
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S288x64, .f32⟩
  | .hbm, ⟨3, _⟩ => ⟨S8x30x30x64, .f32⟩
  | .local _ .vmem, ⟨0, _⟩ => ⟨S1x32x32x32, .f32⟩
  | .local _ .vmem, ⟨1, _⟩ => ⟨S1x32x32x32, .f32⟩
  | .local _ .vmem, ⟨2, _⟩ => ⟨S288x64, .f32⟩
  | .local _ .vmem, ⟨3, _⟩ => ⟨S1x30x30x64, .f32⟩
  | .local _ .vmem, ⟨4, _⟩ => ⟨S1x30x30x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x30x30x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1x1x288x64_S288x64 : S1x1x1x288x64.ShapeCasts S288x64
  inb_S1x32x32x32_S1x32x32x32_0_0_0_0 : ∀ a, (![0, 0, 0, 0] : Fin 4 → Nat) a + S1x32x32x32.size a ≤ S1x32x32x32.size a
  h_S1x32x32x32 : 0 < S1x32x32x32.numel
  shapeCasts_S1x32x32x32_S32x32x32 : S1x32x32x32.ShapeCasts S32x32x32
  inb_S288x64_S288x64_0_0 : ∀ a, (![0, 0] : Fin 2 → Nat) a + S288x64.size a ≤ S288x64.size a
  h_S288x64 : 0 < S288x64.numel
  shapeCasts_S288x64_S288x64 : S288x64.ShapeCasts S288x64
  slices_S32x32x32_o0_0_0_S30x30x32 : S32x32x32.Slices ![0, 0, 0] S30x30x32
  slices_S288x64_o0_0_S1x64 : S288x64.Slices ![0, 0] S1x64
  shapeCasts_S1x64_S64 : S1x64.ShapeCasts S64
  slices_S288x64_o1_0_S1x64 : S288x64.Slices ![1, 0] S1x64
  slices_S30x30x32_o0_0_0_S30x30x1 : S30x30x32.Slices ![0, 0, 0] S30x30x1
  shapeCasts_S30x30x1_S30x30 : S30x30x1.ShapeCasts S30x30
  slices_S30x30x32_o0_0_1_S30x30x1 : S30x30x32.Slices ![0, 0, 1] S30x30x1
  shapeCasts_S30x30_S30x30x1 : S30x30.ShapeCasts S30x30x1
  shapeCasts_S64_S1x1x64 : S64.ShapeCasts S1x1x64
  broadcasts_S30x30x1_S30x30x64 : S30x30x1.Broadcasts S30x30x64
  broadcasts_S1x1x64_S30x30x64 : S1x1x64.Broadcasts S30x30x64
  concatenates_S30x30x64_S30x30x64_S30x30x128_d2 : Shape.Concatenates [S30x30x64, S30x30x64] S30x30x128 2
  slices_S288x64_o2_0_S1x64 : S288x64.Slices ![2, 0] S1x64
  slices_S288x64_o3_0_S1x64 : S288x64.Slices ![3, 0] S1x64
  slices_S30x30x32_o0_0_2_S30x30x1 : S30x30x32.Slices ![0, 0, 2] S30x30x1
  slices_S30x30x32_o0_0_3_S30x30x1 : S30x30x32.Slices ![0, 0, 3] S30x30x1
  slices_S288x64_o4_0_S1x64 : S288x64.Slices ![4, 0] S1x64
  slices_S288x64_o5_0_S1x64 : S288x64.Slices ![5, 0] S1x64
  slices_S30x30x32_o0_0_4_S30x30x1 : S30x30x32.Slices ![0, 0, 4] S30x30x1
  slices_S30x30x32_o0_0_5_S30x30x1 : S30x30x32.Slices ![0, 0, 5] S30x30x1
  slices_S288x64_o6_0_S1x64 : S288x64.Slices ![6, 0] S1x64
  slices_S288x64_o7_0_S1x64 : S288x64.Slices ![7, 0] S1x64
  slices_S30x30x32_o0_0_6_S30x30x1 : S30x30x32.Slices ![0, 0, 6] S30x30x1
  slices_S30x30x32_o0_0_7_S30x30x1 : S30x30x32.Slices ![0, 0, 7] S30x30x1
  slices_S288x64_o8_0_S1x64 : S288x64.Slices ![8, 0] S1x64
  slices_S288x64_o9_0_S1x64 : S288x64.Slices ![9, 0] S1x64
  slices_S30x30x32_o0_0_8_S30x30x1 : S30x30x32.Slices ![0, 0, 8] S30x30x1
  slices_S30x30x32_o0_0_9_S30x30x1 : S30x30x32.Slices ![0, 0, 9] S30x30x1
  slices_S288x64_o10_0_S1x64 : S288x64.Slices ![10, 0] S1x64
  slices_S288x64_o11_0_S1x64 : S288x64.Slices ![11, 0] S1x64
  slices_S30x30x32_o0_0_10_S30x30x1 : S30x30x32.Slices ![0, 0, 10] S30x30x1
  slices_S30x30x32_o0_0_11_S30x30x1 : S30x30x32.Slices ![0, 0, 11] S30x30x1
  slices_S288x64_o12_0_S1x64 : S288x64.Slices ![12, 0] S1x64
  slices_S288x64_o13_0_S1x64 : S288x64.Slices ![13, 0] S1x64
  slices_S30x30x32_o0_0_12_S30x30x1 : S30x30x32.Slices ![0, 0, 12] S30x30x1
  slices_S30x30x32_o0_0_13_S30x30x1 : S30x30x32.Slices ![0, 0, 13] S30x30x1
  slices_S288x64_o14_0_S1x64 : S288x64.Slices ![14, 0] S1x64
  slices_S288x64_o15_0_S1x64 : S288x64.Slices ![15, 0] S1x64
  slices_S30x30x32_o0_0_14_S30x30x1 : S30x30x32.Slices ![0, 0, 14] S30x30x1
  slices_S30x30x32_o0_0_15_S30x30x1 : S30x30x32.Slices ![0, 0, 15] S30x30x1
  slices_S288x64_o16_0_S1x64 : S288x64.Slices ![16, 0] S1x64
  slices_S288x64_o17_0_S1x64 : S288x64.Slices ![17, 0] S1x64
  slices_S30x30x32_o0_0_16_S30x30x1 : S30x30x32.Slices ![0, 0, 16] S30x30x1
  slices_S30x30x32_o0_0_17_S30x30x1 : S30x30x32.Slices ![0, 0, 17] S30x30x1
  slices_S288x64_o18_0_S1x64 : S288x64.Slices ![18, 0] S1x64
  slices_S288x64_o19_0_S1x64 : S288x64.Slices ![19, 0] S1x64
  slices_S30x30x32_o0_0_18_S30x30x1 : S30x30x32.Slices ![0, 0, 18] S30x30x1
  slices_S30x30x32_o0_0_19_S30x30x1 : S30x30x32.Slices ![0, 0, 19] S30x30x1
  slices_S288x64_o20_0_S1x64 : S288x64.Slices ![20, 0] S1x64
  slices_S288x64_o21_0_S1x64 : S288x64.Slices ![21, 0] S1x64
  slices_S30x30x32_o0_0_20_S30x30x1 : S30x30x32.Slices ![0, 0, 20] S30x30x1
  slices_S30x30x32_o0_0_21_S30x30x1 : S30x30x32.Slices ![0, 0, 21] S30x30x1
  slices_S288x64_o22_0_S1x64 : S288x64.Slices ![22, 0] S1x64
  slices_S288x64_o23_0_S1x64 : S288x64.Slices ![23, 0] S1x64
  slices_S30x30x32_o0_0_22_S30x30x1 : S30x30x32.Slices ![0, 0, 22] S30x30x1
  slices_S30x30x32_o0_0_23_S30x30x1 : S30x30x32.Slices ![0, 0, 23] S30x30x1
  slices_S288x64_o24_0_S1x64 : S288x64.Slices ![24, 0] S1x64
  slices_S288x64_o25_0_S1x64 : S288x64.Slices ![25, 0] S1x64
  slices_S30x30x32_o0_0_24_S30x30x1 : S30x30x32.Slices ![0, 0, 24] S30x30x1
  slices_S30x30x32_o0_0_25_S30x30x1 : S30x30x32.Slices ![0, 0, 25] S30x30x1
  slices_S288x64_o26_0_S1x64 : S288x64.Slices ![26, 0] S1x64
  slices_S288x64_o27_0_S1x64 : S288x64.Slices ![27, 0] S1x64
  slices_S30x30x32_o0_0_26_S30x30x1 : S30x30x32.Slices ![0, 0, 26] S30x30x1
  slices_S30x30x32_o0_0_27_S30x30x1 : S30x30x32.Slices ![0, 0, 27] S30x30x1
  slices_S288x64_o28_0_S1x64 : S288x64.Slices ![28, 0] S1x64
  slices_S288x64_o29_0_S1x64 : S288x64.Slices ![29, 0] S1x64
  slices_S30x30x32_o0_0_28_S30x30x1 : S30x30x32.Slices ![0, 0, 28] S30x30x1
  slices_S30x30x32_o0_0_29_S30x30x1 : S30x30x32.Slices ![0, 0, 29] S30x30x1
  slices_S288x64_o30_0_S1x64 : S288x64.Slices ![30, 0] S1x64
  slices_S288x64_o31_0_S1x64 : S288x64.Slices ![31, 0] S1x64
  slices_S30x30x32_o0_0_30_S30x30x1 : S30x30x32.Slices ![0, 0, 30] S30x30x1
  slices_S30x30x32_o0_0_31_S30x30x1 : S30x30x32.Slices ![0, 0, 31] S30x30x1
  slices_S32x32x32_o0_1_0_S30x30x32 : S32x32x32.Slices ![0, 1, 0] S30x30x32
  slices_S288x64_o32_0_S1x64 : S288x64.Slices ![32, 0] S1x64
  slices_S288x64_o33_0_S1x64 : S288x64.Slices ![33, 0] S1x64
  slices_S288x64_o34_0_S1x64 : S288x64.Slices ![34, 0] S1x64
  slices_S288x64_o35_0_S1x64 : S288x64.Slices ![35, 0] S1x64
  slices_S288x64_o36_0_S1x64 : S288x64.Slices ![36, 0] S1x64
  slices_S288x64_o37_0_S1x64 : S288x64.Slices ![37, 0] S1x64
  slices_S288x64_o38_0_S1x64 : S288x64.Slices ![38, 0] S1x64
  slices_S288x64_o39_0_S1x64 : S288x64.Slices ![39, 0] S1x64
  slices_S288x64_o40_0_S1x64 : S288x64.Slices ![40, 0] S1x64
  slices_S288x64_o41_0_S1x64 : S288x64.Slices ![41, 0] S1x64
  slices_S288x64_o42_0_S1x64 : S288x64.Slices ![42, 0] S1x64
  slices_S288x64_o43_0_S1x64 : S288x64.Slices ![43, 0] S1x64
  slices_S288x64_o44_0_S1x64 : S288x64.Slices ![44, 0] S1x64
  slices_S288x64_o45_0_S1x64 : S288x64.Slices ![45, 0] S1x64
  slices_S288x64_o46_0_S1x64 : S288x64.Slices ![46, 0] S1x64
  slices_S288x64_o47_0_S1x64 : S288x64.Slices ![47, 0] S1x64
  slices_S288x64_o48_0_S1x64 : S288x64.Slices ![48, 0] S1x64
  slices_S288x64_o49_0_S1x64 : S288x64.Slices ![49, 0] S1x64
  slices_S288x64_o50_0_S1x64 : S288x64.Slices ![50, 0] S1x64
  slices_S288x64_o51_0_S1x64 : S288x64.Slices ![51, 0] S1x64
  slices_S288x64_o52_0_S1x64 : S288x64.Slices ![52, 0] S1x64
  slices_S288x64_o53_0_S1x64 : S288x64.Slices ![53, 0] S1x64
  slices_S288x64_o54_0_S1x64 : S288x64.Slices ![54, 0] S1x64
  slices_S288x64_o55_0_S1x64 : S288x64.Slices ![55, 0] S1x64
  slices_S288x64_o56_0_S1x64 : S288x64.Slices ![56, 0] S1x64
  slices_S288x64_o57_0_S1x64 : S288x64.Slices ![57, 0] S1x64
  slices_S288x64_o58_0_S1x64 : S288x64.Slices ![58, 0] S1x64
  slices_S288x64_o59_0_S1x64 : S288x64.Slices ![59, 0] S1x64
  slices_S288x64_o60_0_S1x64 : S288x64.Slices ![60, 0] S1x64
  slices_S288x64_o61_0_S1x64 : S288x64.Slices ![61, 0] S1x64
  slices_S288x64_o62_0_S1x64 : S288x64.Slices ![62, 0] S1x64
  slices_S288x64_o63_0_S1x64 : S288x64.Slices ![63, 0] S1x64
  slices_S32x32x32_o0_2_0_S30x30x32 : S32x32x32.Slices ![0, 2, 0] S30x30x32
  slices_S288x64_o64_0_S1x64 : S288x64.Slices ![64, 0] S1x64
  slices_S288x64_o65_0_S1x64 : S288x64.Slices ![65, 0] S1x64
  slices_S288x64_o66_0_S1x64 : S288x64.Slices ![66, 0] S1x64
  slices_S288x64_o67_0_S1x64 : S288x64.Slices ![67, 0] S1x64
  slices_S288x64_o68_0_S1x64 : S288x64.Slices ![68, 0] S1x64
  slices_S288x64_o69_0_S1x64 : S288x64.Slices ![69, 0] S1x64
  slices_S288x64_o70_0_S1x64 : S288x64.Slices ![70, 0] S1x64
  slices_S288x64_o71_0_S1x64 : S288x64.Slices ![71, 0] S1x64
  slices_S288x64_o72_0_S1x64 : S288x64.Slices ![72, 0] S1x64
  slices_S288x64_o73_0_S1x64 : S288x64.Slices ![73, 0] S1x64
  slices_S288x64_o74_0_S1x64 : S288x64.Slices ![74, 0] S1x64
  slices_S288x64_o75_0_S1x64 : S288x64.Slices ![75, 0] S1x64
  slices_S288x64_o76_0_S1x64 : S288x64.Slices ![76, 0] S1x64
  slices_S288x64_o77_0_S1x64 : S288x64.Slices ![77, 0] S1x64
  slices_S288x64_o78_0_S1x64 : S288x64.Slices ![78, 0] S1x64
  slices_S288x64_o79_0_S1x64 : S288x64.Slices ![79, 0] S1x64
  slices_S288x64_o80_0_S1x64 : S288x64.Slices ![80, 0] S1x64
  slices_S288x64_o81_0_S1x64 : S288x64.Slices ![81, 0] S1x64
  slices_S288x64_o82_0_S1x64 : S288x64.Slices ![82, 0] S1x64
  slices_S288x64_o83_0_S1x64 : S288x64.Slices ![83, 0] S1x64
  slices_S288x64_o84_0_S1x64 : S288x64.Slices ![84, 0] S1x64
  slices_S288x64_o85_0_S1x64 : S288x64.Slices ![85, 0] S1x64
  slices_S288x64_o86_0_S1x64 : S288x64.Slices ![86, 0] S1x64
  slices_S288x64_o87_0_S1x64 : S288x64.Slices ![87, 0] S1x64
  slices_S288x64_o88_0_S1x64 : S288x64.Slices ![88, 0] S1x64
  slices_S288x64_o89_0_S1x64 : S288x64.Slices ![89, 0] S1x64
  slices_S288x64_o90_0_S1x64 : S288x64.Slices ![90, 0] S1x64
  slices_S288x64_o91_0_S1x64 : S288x64.Slices ![91, 0] S1x64
  slices_S288x64_o92_0_S1x64 : S288x64.Slices ![92, 0] S1x64
  slices_S288x64_o93_0_S1x64 : S288x64.Slices ![93, 0] S1x64
  slices_S288x64_o94_0_S1x64 : S288x64.Slices ![94, 0] S1x64
  slices_S288x64_o95_0_S1x64 : S288x64.Slices ![95, 0] S1x64
  slices_S32x32x32_o1_0_0_S30x30x32 : S32x32x32.Slices ![1, 0, 0] S30x30x32
  slices_S288x64_o96_0_S1x64 : S288x64.Slices ![96, 0] S1x64
  slices_S288x64_o97_0_S1x64 : S288x64.Slices ![97, 0] S1x64
  slices_S288x64_o98_0_S1x64 : S288x64.Slices ![98, 0] S1x64
  slices_S288x64_o99_0_S1x64 : S288x64.Slices ![99, 0] S1x64
  slices_S288x64_o100_0_S1x64 : S288x64.Slices ![100, 0] S1x64
  slices_S288x64_o101_0_S1x64 : S288x64.Slices ![101, 0] S1x64
  slices_S288x64_o102_0_S1x64 : S288x64.Slices ![102, 0] S1x64
  slices_S288x64_o103_0_S1x64 : S288x64.Slices ![103, 0] S1x64
  slices_S288x64_o104_0_S1x64 : S288x64.Slices ![104, 0] S1x64
  slices_S288x64_o105_0_S1x64 : S288x64.Slices ![105, 0] S1x64
  slices_S288x64_o106_0_S1x64 : S288x64.Slices ![106, 0] S1x64
  slices_S288x64_o107_0_S1x64 : S288x64.Slices ![107, 0] S1x64
  slices_S288x64_o108_0_S1x64 : S288x64.Slices ![108, 0] S1x64
  slices_S288x64_o109_0_S1x64 : S288x64.Slices ![109, 0] S1x64
  slices_S288x64_o110_0_S1x64 : S288x64.Slices ![110, 0] S1x64
  slices_S288x64_o111_0_S1x64 : S288x64.Slices ![111, 0] S1x64
  slices_S288x64_o112_0_S1x64 : S288x64.Slices ![112, 0] S1x64
  slices_S288x64_o113_0_S1x64 : S288x64.Slices ![113, 0] S1x64
  slices_S288x64_o114_0_S1x64 : S288x64.Slices ![114, 0] S1x64
  slices_S288x64_o115_0_S1x64 : S288x64.Slices ![115, 0] S1x64
  slices_S288x64_o116_0_S1x64 : S288x64.Slices ![116, 0] S1x64
  slices_S288x64_o117_0_S1x64 : S288x64.Slices ![117, 0] S1x64
  slices_S288x64_o118_0_S1x64 : S288x64.Slices ![118, 0] S1x64
  slices_S288x64_o119_0_S1x64 : S288x64.Slices ![119, 0] S1x64
  slices_S288x64_o120_0_S1x64 : S288x64.Slices ![120, 0] S1x64
  slices_S288x64_o121_0_S1x64 : S288x64.Slices ![121, 0] S1x64
  slices_S288x64_o122_0_S1x64 : S288x64.Slices ![122, 0] S1x64
  slices_S288x64_o123_0_S1x64 : S288x64.Slices ![123, 0] S1x64
  slices_S288x64_o124_0_S1x64 : S288x64.Slices ![124, 0] S1x64
  slices_S288x64_o125_0_S1x64 : S288x64.Slices ![125, 0] S1x64
  slices_S288x64_o126_0_S1x64 : S288x64.Slices ![126, 0] S1x64
  slices_S288x64_o127_0_S1x64 : S288x64.Slices ![127, 0] S1x64
  slices_S32x32x32_o1_1_0_S30x30x32 : S32x32x32.Slices ![1, 1, 0] S30x30x32
  slices_S288x64_o128_0_S1x64 : S288x64.Slices ![128, 0] S1x64
  slices_S288x64_o129_0_S1x64 : S288x64.Slices ![129, 0] S1x64
  slices_S288x64_o130_0_S1x64 : S288x64.Slices ![130, 0] S1x64
  slices_S288x64_o131_0_S1x64 : S288x64.Slices ![131, 0] S1x64
  slices_S288x64_o132_0_S1x64 : S288x64.Slices ![132, 0] S1x64
  slices_S288x64_o133_0_S1x64 : S288x64.Slices ![133, 0] S1x64
  slices_S288x64_o134_0_S1x64 : S288x64.Slices ![134, 0] S1x64
  slices_S288x64_o135_0_S1x64 : S288x64.Slices ![135, 0] S1x64
  slices_S288x64_o136_0_S1x64 : S288x64.Slices ![136, 0] S1x64
  slices_S288x64_o137_0_S1x64 : S288x64.Slices ![137, 0] S1x64
  slices_S288x64_o138_0_S1x64 : S288x64.Slices ![138, 0] S1x64
  slices_S288x64_o139_0_S1x64 : S288x64.Slices ![139, 0] S1x64
  slices_S288x64_o140_0_S1x64 : S288x64.Slices ![140, 0] S1x64
  slices_S288x64_o141_0_S1x64 : S288x64.Slices ![141, 0] S1x64
  slices_S288x64_o142_0_S1x64 : S288x64.Slices ![142, 0] S1x64
  slices_S288x64_o143_0_S1x64 : S288x64.Slices ![143, 0] S1x64
  slices_S288x64_o144_0_S1x64 : S288x64.Slices ![144, 0] S1x64
  slices_S288x64_o145_0_S1x64 : S288x64.Slices ![145, 0] S1x64
  slices_S288x64_o146_0_S1x64 : S288x64.Slices ![146, 0] S1x64
  slices_S288x64_o147_0_S1x64 : S288x64.Slices ![147, 0] S1x64
  slices_S288x64_o148_0_S1x64 : S288x64.Slices ![148, 0] S1x64
  slices_S288x64_o149_0_S1x64 : S288x64.Slices ![149, 0] S1x64
  slices_S288x64_o150_0_S1x64 : S288x64.Slices ![150, 0] S1x64
  slices_S288x64_o151_0_S1x64 : S288x64.Slices ![151, 0] S1x64
  slices_S288x64_o152_0_S1x64 : S288x64.Slices ![152, 0] S1x64
  slices_S288x64_o153_0_S1x64 : S288x64.Slices ![153, 0] S1x64
  slices_S288x64_o154_0_S1x64 : S288x64.Slices ![154, 0] S1x64
  slices_S288x64_o155_0_S1x64 : S288x64.Slices ![155, 0] S1x64
  slices_S288x64_o156_0_S1x64 : S288x64.Slices ![156, 0] S1x64
  slices_S288x64_o157_0_S1x64 : S288x64.Slices ![157, 0] S1x64
  slices_S288x64_o158_0_S1x64 : S288x64.Slices ![158, 0] S1x64
  slices_S288x64_o159_0_S1x64 : S288x64.Slices ![159, 0] S1x64
  slices_S32x32x32_o1_2_0_S30x30x32 : S32x32x32.Slices ![1, 2, 0] S30x30x32
  slices_S288x64_o160_0_S1x64 : S288x64.Slices ![160, 0] S1x64
  slices_S288x64_o161_0_S1x64 : S288x64.Slices ![161, 0] S1x64
  slices_S288x64_o162_0_S1x64 : S288x64.Slices ![162, 0] S1x64
  slices_S288x64_o163_0_S1x64 : S288x64.Slices ![163, 0] S1x64
  slices_S288x64_o164_0_S1x64 : S288x64.Slices ![164, 0] S1x64
  slices_S288x64_o165_0_S1x64 : S288x64.Slices ![165, 0] S1x64
  slices_S288x64_o166_0_S1x64 : S288x64.Slices ![166, 0] S1x64
  slices_S288x64_o167_0_S1x64 : S288x64.Slices ![167, 0] S1x64
  slices_S288x64_o168_0_S1x64 : S288x64.Slices ![168, 0] S1x64
  slices_S288x64_o169_0_S1x64 : S288x64.Slices ![169, 0] S1x64
  slices_S288x64_o170_0_S1x64 : S288x64.Slices ![170, 0] S1x64
  slices_S288x64_o171_0_S1x64 : S288x64.Slices ![171, 0] S1x64
  slices_S288x64_o172_0_S1x64 : S288x64.Slices ![172, 0] S1x64
  slices_S288x64_o173_0_S1x64 : S288x64.Slices ![173, 0] S1x64
  slices_S288x64_o174_0_S1x64 : S288x64.Slices ![174, 0] S1x64
  slices_S288x64_o175_0_S1x64 : S288x64.Slices ![175, 0] S1x64
  slices_S288x64_o176_0_S1x64 : S288x64.Slices ![176, 0] S1x64
  slices_S288x64_o177_0_S1x64 : S288x64.Slices ![177, 0] S1x64
  slices_S288x64_o178_0_S1x64 : S288x64.Slices ![178, 0] S1x64
  slices_S288x64_o179_0_S1x64 : S288x64.Slices ![179, 0] S1x64
  slices_S288x64_o180_0_S1x64 : S288x64.Slices ![180, 0] S1x64
  slices_S288x64_o181_0_S1x64 : S288x64.Slices ![181, 0] S1x64
  slices_S288x64_o182_0_S1x64 : S288x64.Slices ![182, 0] S1x64
  slices_S288x64_o183_0_S1x64 : S288x64.Slices ![183, 0] S1x64
  slices_S288x64_o184_0_S1x64 : S288x64.Slices ![184, 0] S1x64
  slices_S288x64_o185_0_S1x64 : S288x64.Slices ![185, 0] S1x64
  slices_S288x64_o186_0_S1x64 : S288x64.Slices ![186, 0] S1x64
  slices_S288x64_o187_0_S1x64 : S288x64.Slices ![187, 0] S1x64
  slices_S288x64_o188_0_S1x64 : S288x64.Slices ![188, 0] S1x64
  slices_S288x64_o189_0_S1x64 : S288x64.Slices ![189, 0] S1x64
  slices_S288x64_o190_0_S1x64 : S288x64.Slices ![190, 0] S1x64
  slices_S288x64_o191_0_S1x64 : S288x64.Slices ![191, 0] S1x64
  slices_S32x32x32_o2_0_0_S30x30x32 : S32x32x32.Slices ![2, 0, 0] S30x30x32
  slices_S288x64_o192_0_S1x64 : S288x64.Slices ![192, 0] S1x64
  slices_S288x64_o193_0_S1x64 : S288x64.Slices ![193, 0] S1x64
  slices_S288x64_o194_0_S1x64 : S288x64.Slices ![194, 0] S1x64
  slices_S288x64_o195_0_S1x64 : S288x64.Slices ![195, 0] S1x64
  slices_S288x64_o196_0_S1x64 : S288x64.Slices ![196, 0] S1x64
  slices_S288x64_o197_0_S1x64 : S288x64.Slices ![197, 0] S1x64
  slices_S288x64_o198_0_S1x64 : S288x64.Slices ![198, 0] S1x64
  slices_S288x64_o199_0_S1x64 : S288x64.Slices ![199, 0] S1x64
  slices_S288x64_o200_0_S1x64 : S288x64.Slices ![200, 0] S1x64
  slices_S288x64_o201_0_S1x64 : S288x64.Slices ![201, 0] S1x64
  slices_S288x64_o202_0_S1x64 : S288x64.Slices ![202, 0] S1x64
  slices_S288x64_o203_0_S1x64 : S288x64.Slices ![203, 0] S1x64
  slices_S288x64_o204_0_S1x64 : S288x64.Slices ![204, 0] S1x64
  slices_S288x64_o205_0_S1x64 : S288x64.Slices ![205, 0] S1x64
  slices_S288x64_o206_0_S1x64 : S288x64.Slices ![206, 0] S1x64
  slices_S288x64_o207_0_S1x64 : S288x64.Slices ![207, 0] S1x64
  slices_S288x64_o208_0_S1x64 : S288x64.Slices ![208, 0] S1x64
  slices_S288x64_o209_0_S1x64 : S288x64.Slices ![209, 0] S1x64
  slices_S288x64_o210_0_S1x64 : S288x64.Slices ![210, 0] S1x64
  slices_S288x64_o211_0_S1x64 : S288x64.Slices ![211, 0] S1x64
  slices_S288x64_o212_0_S1x64 : S288x64.Slices ![212, 0] S1x64
  slices_S288x64_o213_0_S1x64 : S288x64.Slices ![213, 0] S1x64
  slices_S288x64_o214_0_S1x64 : S288x64.Slices ![214, 0] S1x64
  slices_S288x64_o215_0_S1x64 : S288x64.Slices ![215, 0] S1x64
  slices_S288x64_o216_0_S1x64 : S288x64.Slices ![216, 0] S1x64
  slices_S288x64_o217_0_S1x64 : S288x64.Slices ![217, 0] S1x64
  slices_S288x64_o218_0_S1x64 : S288x64.Slices ![218, 0] S1x64
  slices_S288x64_o219_0_S1x64 : S288x64.Slices ![219, 0] S1x64
  slices_S288x64_o220_0_S1x64 : S288x64.Slices ![220, 0] S1x64
  slices_S288x64_o221_0_S1x64 : S288x64.Slices ![221, 0] S1x64
  slices_S288x64_o222_0_S1x64 : S288x64.Slices ![222, 0] S1x64
  slices_S288x64_o223_0_S1x64 : S288x64.Slices ![223, 0] S1x64
  slices_S32x32x32_o2_1_0_S30x30x32 : S32x32x32.Slices ![2, 1, 0] S30x30x32
  slices_S288x64_o224_0_S1x64 : S288x64.Slices ![224, 0] S1x64
  slices_S288x64_o225_0_S1x64 : S288x64.Slices ![225, 0] S1x64
  slices_S288x64_o226_0_S1x64 : S288x64.Slices ![226, 0] S1x64
  slices_S288x64_o227_0_S1x64 : S288x64.Slices ![227, 0] S1x64
  slices_S288x64_o228_0_S1x64 : S288x64.Slices ![228, 0] S1x64
  slices_S288x64_o229_0_S1x64 : S288x64.Slices ![229, 0] S1x64
  slices_S288x64_o230_0_S1x64 : S288x64.Slices ![230, 0] S1x64
  slices_S288x64_o231_0_S1x64 : S288x64.Slices ![231, 0] S1x64
  slices_S288x64_o232_0_S1x64 : S288x64.Slices ![232, 0] S1x64
  slices_S288x64_o233_0_S1x64 : S288x64.Slices ![233, 0] S1x64
  slices_S288x64_o234_0_S1x64 : S288x64.Slices ![234, 0] S1x64
  slices_S288x64_o235_0_S1x64 : S288x64.Slices ![235, 0] S1x64
  slices_S288x64_o236_0_S1x64 : S288x64.Slices ![236, 0] S1x64
  slices_S288x64_o237_0_S1x64 : S288x64.Slices ![237, 0] S1x64
  slices_S288x64_o238_0_S1x64 : S288x64.Slices ![238, 0] S1x64
  slices_S288x64_o239_0_S1x64 : S288x64.Slices ![239, 0] S1x64
  slices_S288x64_o240_0_S1x64 : S288x64.Slices ![240, 0] S1x64
  slices_S288x64_o241_0_S1x64 : S288x64.Slices ![241, 0] S1x64
  slices_S288x64_o242_0_S1x64 : S288x64.Slices ![242, 0] S1x64
  slices_S288x64_o243_0_S1x64 : S288x64.Slices ![243, 0] S1x64
  slices_S288x64_o244_0_S1x64 : S288x64.Slices ![244, 0] S1x64
  slices_S288x64_o245_0_S1x64 : S288x64.Slices ![245, 0] S1x64
  slices_S288x64_o246_0_S1x64 : S288x64.Slices ![246, 0] S1x64
  slices_S288x64_o247_0_S1x64 : S288x64.Slices ![247, 0] S1x64
  slices_S288x64_o248_0_S1x64 : S288x64.Slices ![248, 0] S1x64
  slices_S288x64_o249_0_S1x64 : S288x64.Slices ![249, 0] S1x64
  slices_S288x64_o250_0_S1x64 : S288x64.Slices ![250, 0] S1x64
  slices_S288x64_o251_0_S1x64 : S288x64.Slices ![251, 0] S1x64
  slices_S288x64_o252_0_S1x64 : S288x64.Slices ![252, 0] S1x64
  slices_S288x64_o253_0_S1x64 : S288x64.Slices ![253, 0] S1x64
  slices_S288x64_o254_0_S1x64 : S288x64.Slices ![254, 0] S1x64
  slices_S288x64_o255_0_S1x64 : S288x64.Slices ![255, 0] S1x64
  slices_S32x32x32_o2_2_0_S30x30x32 : S32x32x32.Slices ![2, 2, 0] S30x30x32
  slices_S288x64_o256_0_S1x64 : S288x64.Slices ![256, 0] S1x64
  slices_S288x64_o257_0_S1x64 : S288x64.Slices ![257, 0] S1x64
  slices_S288x64_o258_0_S1x64 : S288x64.Slices ![258, 0] S1x64
  slices_S288x64_o259_0_S1x64 : S288x64.Slices ![259, 0] S1x64
  slices_S288x64_o260_0_S1x64 : S288x64.Slices ![260, 0] S1x64
  slices_S288x64_o261_0_S1x64 : S288x64.Slices ![261, 0] S1x64
  slices_S288x64_o262_0_S1x64 : S288x64.Slices ![262, 0] S1x64
  slices_S288x64_o263_0_S1x64 : S288x64.Slices ![263, 0] S1x64
  slices_S288x64_o264_0_S1x64 : S288x64.Slices ![264, 0] S1x64
  slices_S288x64_o265_0_S1x64 : S288x64.Slices ![265, 0] S1x64
  slices_S288x64_o266_0_S1x64 : S288x64.Slices ![266, 0] S1x64
  slices_S288x64_o267_0_S1x64 : S288x64.Slices ![267, 0] S1x64
  slices_S288x64_o268_0_S1x64 : S288x64.Slices ![268, 0] S1x64
  slices_S288x64_o269_0_S1x64 : S288x64.Slices ![269, 0] S1x64
  slices_S288x64_o270_0_S1x64 : S288x64.Slices ![270, 0] S1x64
  slices_S288x64_o271_0_S1x64 : S288x64.Slices ![271, 0] S1x64
  slices_S288x64_o272_0_S1x64 : S288x64.Slices ![272, 0] S1x64
  slices_S288x64_o273_0_S1x64 : S288x64.Slices ![273, 0] S1x64
  slices_S288x64_o274_0_S1x64 : S288x64.Slices ![274, 0] S1x64
  slices_S288x64_o275_0_S1x64 : S288x64.Slices ![275, 0] S1x64
  slices_S288x64_o276_0_S1x64 : S288x64.Slices ![276, 0] S1x64
  slices_S288x64_o277_0_S1x64 : S288x64.Slices ![277, 0] S1x64
  slices_S288x64_o278_0_S1x64 : S288x64.Slices ![278, 0] S1x64
  slices_S288x64_o279_0_S1x64 : S288x64.Slices ![279, 0] S1x64
  slices_S288x64_o280_0_S1x64 : S288x64.Slices ![280, 0] S1x64
  slices_S288x64_o281_0_S1x64 : S288x64.Slices ![281, 0] S1x64
  slices_S288x64_o282_0_S1x64 : S288x64.Slices ![282, 0] S1x64
  slices_S288x64_o283_0_S1x64 : S288x64.Slices ![283, 0] S1x64
  slices_S288x64_o284_0_S1x64 : S288x64.Slices ![284, 0] S1x64
  slices_S288x64_o285_0_S1x64 : S288x64.Slices ![285, 0] S1x64
  slices_S288x64_o286_0_S1x64 : S288x64.Slices ![286, 0] S1x64
  slices_S288x64_o287_0_S1x64 : S288x64.Slices ![287, 0] S1x64
  slices_S30x30x128_o0_0_0_S30x30x64 : S30x30x128.Slices ![0, 0, 0] S30x30x64
  slices_S30x30x128_o0_0_64_S30x30x64 : S30x30x128.Slices ![0, 0, 64] S30x30x64
  inb_S1x30x30x64_S1x30x30x64_0_0_0_0 : ∀ a, (![0, 0, 0, 0] : Fin 4 → Nat) a + S1x30x30x64.size a ≤ S1x30x30x64.size a
  h_S1x30x30x64 : 0 < S1x30x30x64.numel
  shapeCasts_S1x30x30x64_S30x30x64 : S1x30x30x64.ShapeCasts S30x30x64
  shapeCasts_S30x30x64_S1x30x30x64 : S30x30x64.ShapeCasts S1x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x32.size a ≤ S8x32x32x32.size a
  hwx0_0 : ∀ i : grid0.Coords, EltTy.bits .f32 = 32 ∨ (Rect.block (s := S8x32x32x32) S1x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .f32 = 32 ∨ (Rect.block (s := S288x64) S288x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30x30x64.size a ≤ S8x30x30x64.size a
  hwx0_2 : ∀ i : grid0.Coords, EltTy.bits .f32 = 32 ∨ (Rect.block (s := S8x30x30x64) S1x30x30x64.size (cc0_transform_2 i) (hinb0_2 i)).WholeWords (EltTy.packing .f32)

variable [Facts₀]

abbrev win0_0 : Pipeline.Window sig grid0 :=
  Pipeline.Window.ofSpec (Memref.whole main_arg0) S1x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x30x30x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S8x30x30x32 : Shape := ⟨4, ![8, 30, 30, 32]⟩
abbrev S8x30x30x288 : Shape := ⟨4, ![8, 30, 30, 288]⟩
abbrev S8x30x30x288x1 : Shape := ⟨5, ![8, 30, 30, 288, 1]⟩
abbrev S288x64 : Shape := ⟨2, ![288, 64]⟩
abbrev S8x30x30x288x64 : Shape := ⟨5, ![8, 30, 30, 288, 64]⟩
abbrev S_ : Shape := ⟨0, ![]⟩
abbrev S8x30x30x64 : Shape := ⟨4, ![8, 30, 30, 64]⟩

abbrev nBuf : Space → Nat
  | .hbm => 23
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S8x30x30x32, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x288, .f32⟩
  | .hbm, ⟨12, _⟩ => ⟨S8x30x30x288x1, .f32⟩
  | .hbm, ⟨13, _⟩ => ⟨S288x64, .f32⟩
  | .hbm, ⟨14, _⟩ => ⟨S1x1x1x288x64, .f32⟩
  | .hbm, ⟨15, _⟩ => ⟨S8x30x30x288x64, .f32⟩
  | .hbm, ⟨16, _⟩ => ⟨S8x30x30x288x64, .f32⟩
  | .hbm, ⟨17, _⟩ => ⟨S8x30x30x288x64, .f32⟩
  | .hbm, ⟨18, _⟩ => ⟨S_, .f32⟩
  | .hbm, ⟨19, _⟩ => ⟨S8x30x30x64, .f32⟩
  | .hbm, ⟨20, _⟩ => ⟨S_, .f32⟩
  | .hbm, ⟨21, _⟩ => ⟨S8x30x30x64, .f32⟩
  | .hbm, ⟨22, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  bcast_S8x30x30x288_S8x30x30x288x1_0_1_2_3 : S8x30x30x288.BroadcastsInDim S8x30x30x288x1 (![0, 1, 2, 3] : Fin 4 → Fin S8x30x30x288x1.rank)
  shapeCasts_S1x1x1x288x64_S288x64 : S1x1x1x288x64.ShapeCasts S288x64
  bcast_S288x64_S1x1x1x288x64_3_4 : S288x64.BroadcastsInDim S1x1x1x288x64 (![3, 4] : Fin 2 → Fin S1x1x1x288x64.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel

variable [Facts₀]

class Facts : Prop extends Facts₀ where

variable [Facts]
-- ==== Proof.Rolled.lean ====
/-
  The kernel body is a loop unrolled 144 times: for the nine taps (i, j) of the 3x3 window, in row-major order,
  and for the sixteen channel PAIRS (2p, 2p+1) of each tap, step t = 16 (3 i + j) + p adds row 2t of the
  weights to channel 2p of the tap's window and row 2t+1 to channel 2p+1, lays the two [30, 30, 64] results side by
  side along the lanes as one [30, 30, 128] tile, and takes the running maximum and the running minimum with it.
  This module states that loop ROLLED UP — one step as a function of the counter t, the two accumulators by
  recursion on the number of steps taken — and shows that the body's one store writes exactly the rolled-up
  value: the two sides unfold to the same term, the counter's quotients and remainders computing to the
  offsets the body spells.
-/
import proofs.«105936_j21947282883034_2_alg».proof.Proof.Gen.KernelIdeal.Frame

noncomputable section

namespace Cert.KernelIdeal.Rolled

open Idealize.ShloMosaic Cert.KernelIdeal Cert.KernelIdeal.Gen

variable {F : FTy → Type} [FloatOps F]

/-! ## The windows' shape facts at a variable offset -/

/-- A tap's [30, 30, 32] window of the [32, 32, 32] image starts at row i ≤ 2 and column j ≤ 2. -/
theorem slices_tap (i j : Nat) (hi : i ≤ 2) (hj : j ≤ 2) : S32x32x32.Slices ![i, j, 0] S30x30x32 :=
  ⟨rfl, fun a => match a with
    | ⟨0, _⟩ => by show i + 30 ≤ 32; omega
    | ⟨1, _⟩ => by show j + 30 ≤ 32; omega
    | ⟨2, _⟩ => by show 0 + 32 ≤ 32; omega⟩

/-- One channel c < 32 of a tap's window, kept as a unit last axis. -/
theorem slices_chan (c : Nat) (hc : c < 32) : S30x30x32.Slices ![0, 0, c] S30x30x1 :=
  ⟨rfl, fun a => match a with
    | ⟨0, _⟩ => by show 0 + 30 ≤ 30; omega
    | ⟨1, _⟩ => by show 0 + 30 ≤ 30; omega
    | ⟨2, _⟩ => by show c + 1 ≤ 32; omega⟩

/-- One row r < 288 of the [288, 64] weights, kept as a unit first axis. -/
theorem slices_row (r : Nat) (hr : r < 288) : S288x64.Slices ![r, 0] S1x64 :=
  ⟨rfl, fun a => match a with
    | ⟨0, _⟩ => by show r + 1 ≤ 288; omega
    | ⟨1, _⟩ => by show 0 + 64 ≤ 64; omega⟩

/-! ## One step, and the two accumulators -/

/-- Step t's tap window: rows t / 48 .. t / 48 + 29 and columns (t / 16) % 3 .. + 29 of the image. -/
def tap (v1 : FVec F S32x32x32 .f32) (t : Nat) (ht : t < 144) : FVec F S30x30x32 .f32 :=
  extractStridedSlice S30x30x32 ![t / 48, (t / 16) % 3, 0] v1
    (slices_tap (t / 48) ((t / 16) % 3) (by omega) (by omega))

/-- Channel c of step t's tap window plus row r of the weights: at (h, v, f) the image at
    (h + t / 48, v + (t / 16) % 3, c) plus the weight (r, f). -/
def half (v1 : FVec F S32x32x32 .f32) (v3 : FVec F S288x64 .f32) (t : Nat) (ht : t < 144) (c r : Nat) (hc : c < 32) (hr : r < 288) :
    FVec F S30x30x64 .f32 :=
  addf
    (broadcastTo S30x30x64 (shapeCast S30x30x1 (shapeCast S30x30 (extractStridedSlice S30x30x1 ![0, 0, c] (tap v1 t ht)
      (slices_chan c hc)) shapeCasts_S30x30x1_S30x30) shapeCasts_S30x30_S30x30x1) broadcasts_S30x30x1_S30x30x64)
    (broadcastTo S30x30x64 (shapeCast S1x1x64 (shapeCast S64 (extractStridedSlice S1x64 ![r, 0] v3
      (slices_row r hr)) shapeCasts_S1x64_S64) shapeCasts_S64_S1x1x64) broadcasts_S1x1x64_S30x30x64)

/-- Step t's tile: lanes 0..63 hold channel 2 (t % 16) with weight row 2 t, lanes 64..127 channel 2 (t % 16) + 1 with
    weight row 2 t + 1. -/
def tile (v1 : FVec F S32x32x32 .f32) (v3 : FVec F S288x64 .f32) (t : Nat) (ht : t < 144) : FVec F S30x30x128 .f32 :=
  concatenate S30x30x128 2
    [⟨S30x30x64, half v1 v3 t ht (2 * (t % 16)) (2 * t) (by omega) (by omega)⟩,
     ⟨S30x30x64, half v1 v3 t ht (2 * (t % 16) + 1) (2 * t + 1) (by omega) (by omega)⟩]
    concatenates_S30x30x64_S30x30x64_S30x30x128_d2

/-- The running maximum after n steps, from minus infinity in every lane. -/
def maxAcc (v1 : FVec F S32x32x32 .f32) (v3 : FVec F S288x64 .f32) : (n : Nat) → n ≤ 144 → FVec F S30x30x128 .f32
  | 0, _ => broadcast S30x30x128 (Scalar.ofBits .f32 0xFF800000#32)
  | n + 1, h => maximumf (maxAcc v1 v3 n (by omega)) (tile v1 v3 n (by omega))

/-- The running minimum after n steps, from plus infinity in every lane. -/
def minAcc (v1 : FVec F S32x32x32 .f32) (v3 : FVec F S288x64 .f32) : (n : Nat) → n ≤ 144 → FVec F S30x30x128 .f32
  | 0, _ => broadcast S30x30x128 (Scalar.ofBits .f32 0x7F800000#32)
  | n + 1, h => minimumf (minAcc v1 v3 n (by omega)) (tile v1 v3 n (by omega))

/-! ## The store -/

/-- What the body stores, rolled up: of the two accumulators after all 144 steps, the maximum of the two lane halves of
    the running maximum less the minimum of the two lane halves of the running minimum, as a [1, 30, 30, 64] block —
    a function of the two loaded blocks (the image block and the weights). -/
def stored (v0 : Vec F S1x32x32x32 .f32) (v2 : Vec F S288x64 .f32) : FVec F S1x30x30x64 .f32 :=
  shapeCast S1x30x30x64
    (subf
      (maximumf
        (extractStridedSlice S30x30x64 ![0, 0, 0]
          (maxAcc (shapeCast S32x32x32 v0 shapeCasts_S1x32x32x32_S32x32x32) (shapeCast S288x64 v2 shapeCasts_S288x64_S288x64) 144 (Nat.le_refl _))
          slices_S30x30x128_o0_0_0_S30x30x64)
        (extractStridedSlice S30x30x64 ![0, 0, 64]
          (maxAcc (shapeCast S32x32x32 v0 shapeCasts_S1x32x32x32_S32x32x32) (shapeCast S288x64 v2 shapeCasts_S288x64_S288x64) 144 (Nat.le_refl _))
          slices_S30x30x128_o0_0_64_S30x30x64))
      (minimumf
        (extractStridedSlice S30x30x64 ![0, 0, 0]
          (minAcc (shapeCast S32x32x32 v0 shapeCasts_S1x32x32x32_S32x32x32) (shapeCast S288x64 v2 shapeCasts_S288x64_S288x64) 144 (Nat.le_refl _))
          slices_S30x30x128_o0_0_0_S30x30x64)
        (extractStridedSlice S30x30x64 ![0, 0, 64]
          (minAcc (shapeCast S32x32x32 v0 shapeCasts_S1x32x32x32_S32x32x32) (shapeCast S288x64 v2 shapeCasts_S288x64_S288x64) 144 (Nat.le_refl _))
          slices_S30x30x128_o0_0_64_S30x30x64)))
    shapeCasts_S30x30x64_S1x30x30x64

/-- The output block after the body, as the generated frame names it (the canon of the body's one store over the two
    input blocks), is the canon of the rolled-up value: the generated payloads unfold, step by step, to the rolled-up
    recursion's unfolding, each step's offsets the counter's quotients and remainders evaluated. -/
theorem out_eq_stored (x0 : Vec F S1x32x32x32 .f32) (x1 : Vec F S288x64 .f32) :
    out0_2 x0 x1 = View.canon [⟨r0_2, stored (View.ld x0 r0_0) (View.ld x1 r0_1)⟩] := rfl

end Cert.KernelIdeal.Rolled

end
-- ==== Proof.Spec.lean ====
/-
  The specification: a max-plus / min-plus ("tropical") 3x3 convolution, stride 1, no padding.
  For an image x of shape [8, 32, 32, 32] (batch, row, column, channel) and weights w of shape [1, 1, 1, 288, 64]
  (patch coordinate, filter), the result at (b, h, v, f) is

      max over k < 288 of (x[b, h + i, v + j, c] + w[k, f])   less   min over k < 288 of the same terms,

  where patch coordinate k = 96 i + 32 j + c names tap row i = k / 96, tap column j = (k / 32) % 3 and channel c = k % 32.
  The maximum is folded from minus infinity and the minimum from plus infinity, both kept as the f32 words the two
  programs spell; sums, maxima, minima and the difference are the extended reals' own. Nothing here depends on a program.

  The same formula is stated a second time for ONE batch entry and the weights as a [288, 64] matrix: that is
  what a grid point of the kernel computes from its image block, and the two forms agree index by index.
-/
import Idealize.ShloMosaic.PureOps.Ideal
import Idealize.ShloMosaic.PureOps.Ideal.Laws
import Idealize.ShloMosaic.Lib.ValueIdx

noncomputable section

namespace Cert.TropConv

open Idealize.ShloMosaic Idealize.ShloMosaic.ValueIdx

/-- Minus infinity and plus infinity, as the f32 words both programs seed their folds with. -/
def negInf : Ideal .f32 := FloatOps.ofBits .f32 0xFF800000#32
def posInf : Ideal .f32 := FloatOps.ofBits .f32 0x7F800000#32

/-! ## Whole arrays -/

/-- The image position patch coordinate k of output position (h, v) reads, in batch entry b. -/
def src (b : Fin 8) (h v : Fin 30) (k : Fin 288) : (⟨4, ![8, 32, 32, 32]⟩ : Shape).Idx :=
  ix4 b ⟨h.val + k.val / 96, by omega⟩ ⟨v.val + (k.val / 32) % 3, by omega⟩ ⟨k.val % 32, by omega⟩

/-- The k-th of the 288 terms at (b, h, v, f): the image at the patch position plus the weight (k, f). -/
def term (x : (⟨4, ![8, 32, 32, 32]⟩ : Shape).Idx → Ideal .f32) (w : (⟨5, ![1, 1, 1, 288, 64]⟩ : Shape).Idx → Ideal .f32)
    (b : Fin 8) (h v : Fin 30) (f : Fin 64) (k : Fin 288) : Ideal .f32 :=
  FloatOps.addf (x (src b h v k)) (w (ix5 (0 : Fin 1) (0 : Fin 1) (0 : Fin 1) k f))

/-- The result array: the largest term less the smallest, at every (b, h, v, f). -/
def G (x : (⟨4, ![8, 32, 32, 32]⟩ : Shape).Idx → Ideal .f32) (w : (⟨5, ![1, 1, 1, 288, 64]⟩ : Shape).Idx → Ideal .f32) :
    (⟨4, ![8, 30, 30, 64]⟩ : Shape).Idx → Ideal .f32 := fun y =>
  FloatOps.subf
    ((Finset.univ : Finset (Fin 288)).fold FloatOps.maximumf negInf (term x w (y 0) (y 1) (y 2) (y 3)))
    ((Finset.univ : Finset (Fin 288)).fold FloatOps.minimumf posInf (term x w (y 0) (y 1) (y 2) (y 3)))

/-! ## One batch entry -/

/-- The position of a [1, 32, 32, 32] image block that patch coordinate k of (h, v) reads. -/
def srcB (h v : Fin 30) (k : Fin 288) : (⟨4, ![1, 32, 32, 32]⟩ : Shape).Idx :=
  ix4 (0 : Fin 1) ⟨h.val + k.val / 96, by omega⟩ ⟨v.val + (k.val / 32) % 3, by omega⟩ ⟨k.val % 32, by omega⟩

/-- The k-th term at (h, v, f) from one image block and the weights as a [288, 64] matrix. -/
def termB (x0 : (⟨4, ![1, 32, 32, 32]⟩ : Shape).Idx → Ideal .f32) (w2 : (⟨2, ![288, 64]⟩ : Shape).Idx → Ideal .f32)
    (h v : Fin 30) (f : Fin 64) (k : Fin 288) : Ideal .f32 :=
  FloatOps.addf (x0 (srcB h v k)) (w2 (ix2 k f))

/-- One batch entry's [1, 30, 30, 64] block of the result. -/
def GB (x0 : (⟨4, ![1, 32, 32, 32]⟩ : Shape).Idx → Ideal .f32) (w2 : (⟨2, ![288, 64]⟩ : Shape).Idx → Ideal .f32) :
    (⟨4, ![1, 30, 30, 64]⟩ : Shape).Idx → Ideal .f32 := fun y =>
  FloatOps.subf
    ((Finset.univ : Finset (Fin 288)).fold FloatOps.maximumf negInf (termB x0 w2 (y 1) (y 2) (y 3)))
    ((Finset.univ : Finset (Fin 288)).fold FloatOps.minimumf posInf (termB x0 w2 (y 1) (y 2) (y 3)))

/-- The block form is the array form at batch entry b, when the block is the image's b-th and the matrix is the
    weights' [288, 64]: term by term the same sum. -/
theorem GB_eq_G (x : (⟨4, ![8, 32, 32, 32]⟩ : Shape).Idx → Ideal .f32) (w : (⟨5, ![1, 1, 1, 288, 64]⟩ : Shape).Idx → Ideal .f32)
    (x0 : (⟨4, ![1, 32, 32, 32]⟩ : Shape).Idx → Ideal .f32) (w2 : (⟨2, ![288, 64]⟩ : Shape).Idx → Ideal .f32) (b : Fin 8)
    (hx : ∀ (p q c : Fin 32), x0 (ix4 (0 : Fin 1) p q c) = x (ix4 b p q c))
    (hw : ∀ (k : Fin 288) (f : Fin 64), w2 (ix2 k f) = w (ix5 (0 : Fin 1) (0 : Fin 1) (0 : Fin 1) k f))
    (h v : Fin 30) (f : Fin 64) :
    GB x0 w2 (ix4 (0 : Fin 1) h v f) = G x w (ix4 b h v f) := by
  have ht : termB x0 w2 h v f = term x w b h v f := by
    funext k
    unfold termB term srcB src
    rw [hx, hw]
  show FloatOps.subf (Finset.fold _ _ (termB x0 w2 h v f) _) (Finset.fold _ _ (termB x0 w2 h v f) _)
    = FloatOps.subf (Finset.fold _ _ (term x w b h v f) _) (Finset.fold _ _ (term x w b h v f) _)
  rw [ht]

end Cert.TropConv

end
-- ==== Proof.KernelValue.lean ====
/-
  What the rolled-up loop computes, index by index, over the extended reals.

  One step. Step t's tile at (h, v, lane) is, for a lane f < 64, the image block at
  (h + t / 48, v + (t / 16) % 3, 2 (t % 16)) plus the weight (2 t, f), and for the lane 64 + f the image block at
  channel 2 (t % 16) + 1 plus the weight (2 t + 1, f). Written in the weight row k = 2 t or k = 2 t + 1 both are the
  specification's k-th term: tap row k / 96 = t / 48, tap column (k / 32) % 3 = (t / 16) % 3, channel k % 32.

  The accumulators. After n steps the running maximum at lane f is the least upper bound of minus infinity and the
  even terms 0, 2, .., 2 n - 2, at lane 64 + f of minus infinity and the odd terms; stated by the universal property
  (it lies below c exactly when the seed and each of those terms do), proved by induction on n. The running minimum
  dually. After 144 steps the maximum of the two lane halves lies below c exactly when the seed and ALL 288 terms do,
  which is the universal property of the fold of max over the 288 patch coordinates; so the two are equal, no matter
  in which order either side took its maxima. No finiteness is used: max and min on the extended reals are a lattice.
-/
import proofs.«105936_j21947282883034_2_alg».proof.Proof.Rolled
import proofs.«105936_j21947282883034_2_alg».proof.Proof.Spec
import Idealize.ShloMosaic.Lib.Pipeline.Value
import Idealize.ShloMosaic.Lib.ValueIdx
import Idealize.ShloMosaic.Lib.ValueLayout

noncomputable section

namespace Cert.KernelIdeal.Rolled

open Idealize.ShloMosaic Idealize.ShloMosaic.ValueIdx Cert.KernelIdeal Cert.KernelIdeal.Gen Cert.TropConv

variable (v1 : FVec Ideal S32x32x32 .f32) (v3 : FVec Ideal S288x64 .f32)

/-! ## One term, by tap row, tap column, channel and weight row -/

/-- The image block (as [32, 32, 32]) at row h + i, column v + j, channel c, plus the weight (r, f). -/
def rd (h v : Fin 30) (f : Fin 64) (i j c r : Nat) (hi : i ≤ 2) (hj : j ≤ 2) (hc : c < 32) (hr : r < 288) : Ideal .f32 :=
  v1 (ix3 (⟨h.val + i, by omega⟩ : Fin 32) (⟨v.val + j, by omega⟩ : Fin 32) (⟨c, hc⟩ : Fin 32)) + v3 (ix2 (⟨r, hr⟩ : Fin 288) f)

theorem rd_congr (h v : Fin 30) (f : Fin 64) {i j c r i' j' c' r' : Nat} (hi : i ≤ 2) (hj : j ≤ 2) (hc : c < 32) (hr : r < 288)
    (hi' : i' ≤ 2) (hj' : j' ≤ 2) (hc' : c' < 32) (hr' : r' < 288) (ei : i = i') (ej : j = j') (ec : c = c') (er : r = r') :
    rd v1 v3 h v f i j c r hi hj hc hr = rd v1 v3 h v f i' j' c' r' hi' hj' hc' hr' := by
  subst ei ej ec er; rfl

/-- The k-th of the 288 terms at (h, v, f), for a patch coordinate given as a natural number below 288. -/
def tmk (h v : Fin 30) (f : Fin 64) (k : Nat) (hk : k < 288) : Ideal .f32 :=
  rd v1 v3 h v f (k / 96) ((k / 32) % 3) (k % 32) k (by omega) (by omega) (by omega) hk

/-! ## One step's tile at an index -/

/-- A tap window read at (p, q, c) is the image block at (p + t / 48, q + (t / 16) % 3, c). -/
theorem tap_apply (t : Nat) (ht : t < 144) (p q : Fin 30) (c : Fin 32) :
    tap v1 t ht (ix3 p q c) = v1 (ix3 (⟨p.val + t / 48, by omega⟩ : Fin 32) (⟨q.val + (t / 16) % 3, by omega⟩ : Fin 32) c) := by
  unfold tap
  exact extractStridedSlice_apply _ v1 _ (ix3 p q c) _ (fun a => match a with
    | ⟨0, _⟩ => by show p.val + t / 48 = t / 48 + p.val; omega
    | ⟨1, _⟩ => by show q.val + (t / 16) % 3 = (t / 16) % 3 + q.val; omega
    | ⟨2, _⟩ => by show c.val = 0 + c.val; omega)

/-- One half of a step's tile at (h, v, f): channel c of the tap window at (h, v), plus the weight (r, f). -/
theorem half_apply (t : Nat) (ht : t < 144) (c r : Nat) (hc : c < 32) (hr : r < 288) (h v : Fin 30) (f : Fin 64) :
    half v1 v3 t ht c r hc hr (ix3 h v f)
      = rd v1 v3 h v f (t / 48) ((t / 16) % 3) c r (by omega) (by omega) hc hr := by
  unfold half rd
  show _ + _ = _ + _
  congr 1
  · -- the image side: the cast to [30, 30] and back is the identity; the broadcast along the filters reads lane 0
    rw [shapeCast_shapeCast]
    refine (broadcastTo_apply _ _ (ix3 h v f) (ix3 h v (0 : Fin 1)) (fun a => match a with
      | ⟨0, _⟩ => by show h.val = if (30 : Nat) = 1 then 0 else h.val; rw [if_neg (by decide)]
      | ⟨1, _⟩ => by show v.val = if (30 : Nat) = 1 then 0 else v.val; rw [if_neg (by decide)]
      | ⟨2, _⟩ => by show 0 = if (1 : Nat) = 1 then 0 else f.val; rw [if_pos rfl])).trans ?_
    refine (extractStridedSlice_apply _ _ _ (ix3 h v (0 : Fin 1)) (ix3 h v (⟨c, hc⟩ : Fin 32)) (fun a => match a with
      | ⟨0, _⟩ => by show h.val = 0 + h.val; omega
      | ⟨1, _⟩ => by show v.val = 0 + v.val; omega
      | ⟨2, _⟩ => by show c = c + 0; omega)).trans ?_
    exact tap_apply v1 t ht h v ⟨c, hc⟩
  · -- the weights side: the broadcast over (h, v) reads (0, 0, f); the two casts read row 0 of the one-row slice
    refine (broadcastTo_apply _ _ (ix3 h v f) (ix3 (0 : Fin 1) (0 : Fin 1) f) (fun a => match a with
      | ⟨0, _⟩ => by show 0 = if (1 : Nat) = 1 then 0 else h.val; rw [if_pos rfl]
      | ⟨1, _⟩ => by show 0 = if (1 : Nat) = 1 then 0 else v.val; rw [if_pos rfl]
      | ⟨2, _⟩ => by show f.val = if (64 : Nat) = 1 then 0 else f.val; rw [if_neg (by decide)])).trans ?_
    refine (shapeCast_apply _ _ (ix3 (0 : Fin 1) (0 : Fin 1) f) (ix1 f) (by
      rw [Shape.rowMajor_val_one, Shape.rowMajor_val_three]
      show f.val = (0 * 1 + 0) * 64 + f.val; omega)).trans ?_
    refine (shapeCast_apply _ _ (ix1 f) (ix2 (0 : Fin 1) f) (by
      rw [Shape.rowMajor_val_two, Shape.rowMajor_val_one]
      show 0 * 64 + f.val = f.val; omega)).trans ?_
    exact extractStridedSlice_apply _ v3 _ (ix2 (0 : Fin 1) f) (ix2 (⟨r, hr⟩ : Fin 288) f) (fun a => match a with
      | ⟨0, _⟩ => by show r = r + 0; omega
      | ⟨1, _⟩ => by show f.val = 0 + f.val; omega)

/-- Lane f < 64 of step t's tile is the even term 2 t. -/
theorem tile_lo (t : Nat) (ht : t < 144) (h v : Fin 30) (f : Fin 64) :
    tile v1 v3 t ht (ix3 h v (⟨f.val, by omega⟩ : Fin 128)) = tmk v1 v3 h v f (2 * t) (by omega) := by
  unfold tile tmk
  refine (concatenate_pair_apply_left (t := S30x30x128) (s₁ := S30x30x64) (s₂ := S30x30x64) (2 : Fin 3) _ _ _ (ix3 h v (⟨f.val, by omega⟩ : Fin 128)) rfl (ix3 h v f) (fun b => match b with
    | ⟨0, _⟩ => rfl
    | ⟨1, _⟩ => rfl
    | ⟨2, _⟩ => rfl)).trans ?_
  rw [half_apply]
  exact rd_congr v1 v3 h v f _ _ _ _ _ _ _ _ (by omega) (by omega) (by omega) rfl

/-- Lane 64 + f of step t's tile is the odd term 2 t + 1. -/
theorem tile_hi (t : Nat) (ht : t < 144) (h v : Fin 30) (f : Fin 64) :
    tile v1 v3 t ht (ix3 h v (⟨64 + f.val, by omega⟩ : Fin 128)) = tmk v1 v3 h v f (2 * t + 1) (by omega) := by
  unfold tile tmk
  refine (concatenate_pair_apply_right (t := S30x30x128) (s₁ := S30x30x64) (s₂ := S30x30x64) (2 : Fin 3) _ _ _ (ix3 h v (⟨64 + f.val, by omega⟩ : Fin 128)) rfl rfl (ix3 h v f) (fun b => match b with
    | ⟨0, _⟩ => fun _ => rfl
    | ⟨1, _⟩ => fun _ => rfl
    | ⟨2, _⟩ => fun hne => absurd rfl hne) (by show f.val + 64 = 64 + f.val; omega)).trans ?_
  rw [half_apply]
  exact rd_congr v1 v3 h v f _ _ _ _ _ _ _ _ (by omega) (by omega) (by omega) rfl

/-! ## The accumulators, by their universal property -/

/-- The running maximum after n steps, at lane f: the least upper bound of the seed and the even terms below 2 n. -/
theorem maxAcc_lo_le (h v : Fin 30) (f : Fin 64) (c : Ideal .f32) : ∀ (n : Nat) (hn : n ≤ 144),
    maxAcc v1 v3 n hn (ix3 h v (⟨f.val, by omega⟩ : Fin 128)) ≤ c
      ↔ negInf ≤ c ∧ ∀ (t : Nat) (ht : t < n), tmk v1 v3 h v f (2 * t) (by omega) ≤ c
  | 0, _ => by
    show negInf ≤ c ↔ _
    exact ⟨fun h0 => ⟨h0, fun t ht => absurd ht (Nat.not_lt_zero t)⟩, fun h0 => h0.1⟩
  | n + 1, hn => by
    show max (maxAcc v1 v3 n (by omega) _) (tile v1 v3 n (by omega) _) ≤ c ↔ _
    rw [max_le_iff, maxAcc_lo_le h v f c n (by omega), tile_lo]
    constructor
    · rintro ⟨⟨h0, hall⟩, hlast⟩
      refine ⟨h0, fun t ht => ?_⟩
      by_cases e : t = n
      · subst e; exact hlast
      · exact hall t (by omega)
    · rintro ⟨h0, hall⟩
      exact ⟨⟨h0, fun t ht => hall t (by omega)⟩, hall n (by omega)⟩

/-- The running maximum after n steps, at lane 64 + f: the least upper bound of the seed and the odd terms below 2 n. -/
theorem maxAcc_hi_le (h v : Fin 30) (f : Fin 64) (c : Ideal .f32) : ∀ (n : Nat) (hn : n ≤ 144),
    maxAcc v1 v3 n hn (ix3 h v (⟨64 + f.val, by omega⟩ : Fin 128)) ≤ c
      ↔ negInf ≤ c ∧ ∀ (t : Nat) (ht : t < n), tmk v1 v3 h v f (2 * t + 1) (by omega) ≤ c
  | 0, _ => by
    show negInf ≤ c ↔ _
    exact ⟨fun h0 => ⟨h0, fun t ht => absurd ht (Nat.not_lt_zero t)⟩, fun h0 => h0.1⟩
  | n + 1, hn => by
    show max (maxAcc v1 v3 n (by omega) _) (tile v1 v3 n (by omega) _) ≤ c ↔ _
    rw [max_le_iff, maxAcc_hi_le h v f c n (by omega), tile_hi]
    constructor
    · rintro ⟨⟨h0, hall⟩, hlast⟩
      refine ⟨h0, fun t ht => ?_⟩
      by_cases e : t = n
      · subst e; exact hlast
      · exact hall t (by omega)
    · rintro ⟨h0, hall⟩
      exact ⟨⟨h0, fun t ht => hall t (by omega)⟩, hall n (by omega)⟩

/-- The running minimum after n steps, at lane f: the greatest lower bound of the seed and the even terms below 2 n. -/
theorem le_minAcc_lo (h v : Fin 30) (f : Fin 64) (c : Ideal .f32) : ∀ (n : Nat) (hn : n ≤ 144),
    c ≤ minAcc v1 v3 n hn (ix3 h v (⟨f.val, by omega⟩ : Fin 128))
      ↔ c ≤ posInf ∧ ∀ (t : Nat) (ht : t < n), c ≤ tmk v1 v3 h v f (2 * t) (by omega)
  | 0, _ => by
    show c ≤ posInf ↔ _
    exact ⟨fun h0 => ⟨h0, fun t ht => absurd ht (Nat.not_lt_zero t)⟩, fun h0 => h0.1⟩
  | n + 1, hn => by
    show c ≤ min (minAcc v1 v3 n (by omega) _) (tile v1 v3 n (by omega) _) ↔ _
    rw [le_min_iff, le_minAcc_lo h v f c n (by omega), tile_lo]
    constructor
    · rintro ⟨⟨h0, hall⟩, hlast⟩
      refine ⟨h0, fun t ht => ?_⟩
      by_cases e : t = n
      · subst e; exact hlast
      · exact hall t (by omega)
    · rintro ⟨h0, hall⟩
      exact ⟨⟨h0, fun t ht => hall t (by omega)⟩, hall n (by omega)⟩

/-- The running minimum after n steps, at lane 64 + f: the greatest lower bound of the seed and the odd terms below 2 n. -/
theorem le_minAcc_hi (h v : Fin 30) (f : Fin 64) (c : Ideal .f32) : ∀ (n : Nat) (hn : n ≤ 144),
    c ≤ minAcc v1 v3 n hn (ix3 h v (⟨64 + f.val, by omega⟩ : Fin 128))
      ↔ c ≤ posInf ∧ ∀ (t : Nat) (ht : t < n), c ≤ tmk v1 v3 h v f (2 * t + 1) (by omega)
  | 0, _ => by
    show c ≤ posInf ↔ _
    exact ⟨fun h0 => ⟨h0, fun t ht => absurd ht (Nat.not_lt_zero t)⟩, fun h0 => h0.1⟩
  | n + 1, hn => by
    show c ≤ min (minAcc v1 v3 n (by omega) _) (tile v1 v3 n (by omega) _) ↔ _
    rw [le_min_iff, le_minAcc_hi h v f c n (by omega), tile_hi]
    constructor
    · rintro ⟨⟨h0, hall⟩, hlast⟩
      refine ⟨h0, fun t ht => ?_⟩
      by_cases e : t = n
      · subst e; exact hlast
      · exact hall t (by omega)
    · rintro ⟨h0, hall⟩
      exact ⟨⟨h0, fun t ht => hall t (by omega)⟩, hall n (by omega)⟩

/-! ## All 144 steps: the folds over the 288 patch coordinates -/

/-- Every patch coordinate is an even term 2 t or an odd term 2 t + 1 of some step t < 144: a bound on all 288 terms is a
    bound on the even and on the odd ones, and conversely. -/
theorem forall_terms_iff (P : (k : Nat) → k < 288 → Prop) :
    (∀ (k : Fin 288), P k.val k.isLt)
      ↔ (∀ (t : Nat) (ht : t < 144), P (2 * t) (by omega)) ∧ (∀ (t : Nat) (ht : t < 144), P (2 * t + 1) (by omega)) := by
  constructor
  · intro hall
    exact ⟨fun t ht => hall ⟨2 * t, by omega⟩, fun t ht => hall ⟨2 * t + 1, by omega⟩⟩
  · rintro ⟨hev, hod⟩ k
    obtain ⟨k, hk⟩ := k
    rcases Nat.even_or_odd' k with ⟨t, rfl | rfl⟩
    · exact hev t (by omega)
    · exact hod t (by omega)

/-- After all 144 steps, the larger of the running maximum's two lane halves is the fold of max over the 288 terms. -/
theorem max_halves (h v : Fin 30) (f : Fin 64) :
    max (maxAcc v1 v3 144 (Nat.le_refl _) (ix3 h v (⟨f.val, by omega⟩ : Fin 128)))
        (maxAcc v1 v3 144 (Nat.le_refl _) (ix3 h v (⟨64 + f.val, by omega⟩ : Fin 128)))
      = (Finset.univ : Finset (Fin 288)).fold max negInf (fun k => tmk v1 v3 h v f k.val k.isLt) := by
  refine eq_of_forall_ge_iff fun c => ?_
  rw [max_le_iff, maxAcc_lo_le, maxAcc_hi_le, Finset.fold_max_le]
  have hs := forall_terms_iff (fun k hk => tmk v1 v3 h v f k hk ≤ c)
  constructor
  · rintro ⟨⟨h0, hev⟩, -, hod⟩
    exact ⟨h0, fun k _ => hs.mpr ⟨hev, hod⟩ k⟩
  · rintro ⟨h0, hall⟩
    have := hs.mp fun k => hall k (Finset.mem_univ k)
    exact ⟨⟨h0, this.1⟩, h0, this.2⟩

/-- After all 144 steps, the smaller of the running minimum's two lane halves is the fold of min over the 288 terms. -/
theorem min_halves (h v : Fin 30) (f : Fin 64) :
    min (minAcc v1 v3 144 (Nat.le_refl _) (ix3 h v (⟨f.val, by omega⟩ : Fin 128)))
        (minAcc v1 v3 144 (Nat.le_refl _) (ix3 h v (⟨64 + f.val, by omega⟩ : Fin 128)))
      = (Finset.univ : Finset (Fin 288)).fold min posInf (fun k => tmk v1 v3 h v f k.val k.isLt) := by
  refine eq_of_forall_le_iff fun c => ?_
  rw [le_min_iff, le_minAcc_lo, le_minAcc_hi, Finset.le_fold_min]
  have hs := forall_terms_iff (fun k hk => c ≤ tmk v1 v3 h v f k hk)
  constructor
  · rintro ⟨⟨h0, hev⟩, -, hod⟩
    exact ⟨h0, fun k _ => hs.mpr ⟨hev, hod⟩ k⟩
  · rintro ⟨h0, hall⟩
    have := hs.mp fun k => hall k (Finset.mem_univ k)
    exact ⟨⟨h0, this.1⟩, h0, this.2⟩

end Cert.KernelIdeal.Rolled

end
-- ==== Proof.Stored.lean ====
/-
  The store. What a grid point writes, rolled up, is the specification's block: at (h, v, f) the larger of the two
  lane halves f and 64 + f of the running maximum after all 144 steps, less the smaller of the two lane halves of the
  running minimum; by the two fold theorems these are the folds of max and of min over the 288 terms, and each term,
  read through the block's cast to [32, 32, 32] (which only drops the unit batch axis) and the weights' cast to their own
  shape (the identity), is the specification's term of the image block and the weight matrix.
-/
import proofs.«105936_j21947282883034_2_alg».proof.Proof.KernelValue

noncomputable section

namespace Cert.KernelIdeal.Rolled

open Idealize.ShloMosaic Idealize.ShloMosaic.ValueIdx Cert.KernelIdeal Cert.KernelIdeal.Gen Cert.TropConv

/-- The first 64 lanes of a [30, 30, 128] value, read at (h, v, f). -/
theorem lanes_lo (X : FVec Ideal S30x30x128 .f32) (h v : Fin 30) (f : Fin 64) :
    extractStridedSlice S30x30x64 ![0, 0, 0] X slices_S30x30x128_o0_0_0_S30x30x64 (ix3 h v f) = X (ix3 h v (⟨f.val, by omega⟩ : Fin 128)) :=
  extractStridedSlice_apply _ X _ (ix3 h v f) _ (fun a => match a with
    | ⟨0, _⟩ => by show h.val = 0 + h.val; omega
    | ⟨1, _⟩ => by show v.val = 0 + v.val; omega
    | ⟨2, _⟩ => by show f.val = 0 + f.val; omega)

/-- The last 64 lanes of a [30, 30, 128] value, read at (h, v, f). -/
theorem lanes_hi (X : FVec Ideal S30x30x128 .f32) (h v : Fin 30) (f : Fin 64) :
    extractStridedSlice S30x30x64 ![0, 0, 64] X slices_S30x30x128_o0_0_64_S30x30x64 (ix3 h v f) = X (ix3 h v (⟨64 + f.val, by omega⟩ : Fin 128)) :=
  extractStridedSlice_apply _ X _ (ix3 h v f) _ (fun a => match a with
    | ⟨0, _⟩ => by show h.val = 0 + h.val; omega
    | ⟨1, _⟩ => by show v.val = 0 + v.val; omega
    | ⟨2, _⟩ => by show 64 + f.val = 64 + f.val; rfl)

/-- The terms the rolled-up loop folds, read through the two casts of the loaded blocks, are the specification's. -/
theorem tmk_eq_termB (x0 : Vec Ideal S1x32x32x32 .f32) (w2 : Vec Ideal S288x64 .f32) (h v : Fin 30) (f : Fin 64) :
    (fun k : Fin 288 => tmk (shapeCast S32x32x32 x0 shapeCasts_S1x32x32x32_S32x32x32) (shapeCast S288x64 w2 shapeCasts_S288x64_S288x64)
        h v f k.val k.isLt) = termB x0 w2 h v f := by
  funext k
  unfold tmk rd termB srcB
  rw [shapeCast_self]
  exact congrArg (· + w2 (ix2 k f)) (shapeCast_1abc_abc_apply x0 _ _ _ _)

/-- WHAT A GRID POINT STORES is the specification's block of its image block and the weight matrix. -/
theorem stored_eq_GB (x0 : Vec Ideal S1x32x32x32 .f32) (w2 : Vec Ideal S288x64 .f32) : stored x0 w2 = GB x0 w2 := by
  funext y
  obtain ⟨u, h, v, f, rfl⟩ : ∃ (u : Fin 1) (h v : Fin 30) (f : Fin 64), y = ix4 u h v f := ⟨y 0, y 1, y 2, y 3, eq_ix4 y⟩
  have hm := max_halves (shapeCast S32x32x32 x0 shapeCasts_S1x32x32x32_S32x32x32) (shapeCast S288x64 w2 shapeCasts_S288x64_S288x64) h v f
  have hn := min_halves (shapeCast S32x32x32 x0 shapeCasts_S1x32x32x32_S32x32x32) (shapeCast S288x64 w2 shapeCasts_S288x64_S288x64) h v f
  rw [tmk_eq_termB] at hm hn
  unfold stored
  refine (shapeCast_abc_1abc_apply _ _ u h v f).trans ?_
  rw [subf_apply, maximumf_apply, minimumf_apply, lanes_lo, lanes_hi, lanes_lo, lanes_hi, hm, hn]
  rfl

end Cert.KernelIdeal.Rolled

end
-- ==== Proof.Blocks.lean ====
/-
  From blocks to the whole array. The grid has eight points, one per batch entry: point t stages block t of the image
  (its [1, 32, 32, 32] slab), the whole [288, 64] weight matrix — which the host made from the [1, 1, 1, 288, 64]
  weights by a reshape before the launch, so its entry (k, f) is the weights' (0, 0, 0, k, f) — and writes back block t
  of the [8, 30, 30, 64] result. What it writes is the specification's block of what it staged, and the specification's
  block of slab t and the weight matrix is the specification's array G read through block t. The eight blocks tile the
  result (batch entry b lies in block b), so after the run the result array is G of the two arguments.
-/
import proofs.«105936_j21947282883034_2_alg».proof.Proof.Gen.KernelIdeal.Value
import proofs.«105936_j21947282883034_2_alg».proof.Proof.Stored
import Idealize.ShloMosaic.Lib.Pipeline.Value
import Idealize.ShloMosaic.Lib.StableHlo.Run

noncomputable section

namespace Cert.KernelIdeal.Whole

open Cert.KernelIdeal Cert.KernelIdeal.Gen Cert.KernelIdeal.Rolled Cert.TropConv
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The three index maps at every grid point: the image's and the result's blocks are numbered by the point along the
    batch axis and are whole along the others; the weight matrix is one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The weight matrix as the region finds it: the host's reshape of the weights argument. -/
theorem weights_entry (c : Dev nD) :
    (V m c main_v0 : S288x64.Idx → Ideal .f32)
      = shapeCast S288x64 (m ((c : Thread nD τ).loc main_arg1)) shapeCasts_S1x1x1x288x64_S288x64 := by
  dsimp only [Gen.V, Gen.hostOps0]; after_results; rfl

/-- Point t's image block at (0, p, q, ch) is the image argument at (t, p, q, ch). -/
theorem image_block (c : Dev nD) (t : Fin cfg0.N) (p q ch : Fin 32) :
    iblk m c 0 t (ix4 (0 : Fin 1) p q ch) = m ((c : Thread nD τ).loc main_arg0) (ix4 (Fin.cast N_0 t) p q ch) := by
  show V m c main_arg0 (((cfg0.win 0).blk t).view.emb (ix4 (0 : Fin 1) p q ch)) = _
  rw [V_main_arg0]
  refine congrArg _ ?_
  obtain ⟨e0, e1, e2, e3, -⟩ := idx_facts t
  funext a; apply Fin.ext
  match a with
  | ⟨0, _⟩ => show win0_0.index t (0 : Fin 4) * 1 + 1 * 0 = t.val; omega
  | ⟨1, _⟩ => show win0_0.index t (1 : Fin 4) * 32 + 1 * p.val = p.val; omega
  | ⟨2, _⟩ => show win0_0.index t (2 : Fin 4) * 32 + 1 * q.val = q.val; omega
  | ⟨3, _⟩ => show win0_0.index t (3 : Fin 4) * 32 + 1 * ch.val = ch.val; omega

/-- Point t's weight block at (k, f) is the weights argument at (0, 0, 0, k, f). -/
theorem weight_block (c : Dev nD) (t : Fin cfg0.N) (k : Fin 288) (f : Fin 64) :
    iblk m c 1 t (ix2 k f) = m ((c : Thread nD τ).loc main_arg1) (ix5 (0 : Fin 1) (0 : Fin 1) (0 : Fin 1) k f) := by
  show (V m c main_v0 : S288x64.Idx → Ideal .f32) (((cfg0.win 1).blk t).view.emb (ix2 k f)) = _
  rw [weights_entry]
  have hemb : ((cfg0.win 1).blk t).view.emb (ix2 k f) = ix2 k f := by
    obtain ⟨-, -, -, -, e0, e1, -⟩ := idx_facts t
    funext a; apply Fin.ext
    match a with
    | ⟨0, _⟩ => show win0_1.index t (0 : Fin 2) * 288 + 1 * k.val = k.val; omega
    | ⟨1, _⟩ => show win0_1.index t (1 : Fin 2) * 64 + 1 * f.val = f.val; omega
  rw [hemb]
  exact shapeCast_apply _ _ (ix2 k f) (ix5 (0 : Fin 1) (0 : Fin 1) (0 : Fin 1) k f) (by
    rw [Shape.rowMajor_val_five, Shape.rowMajor_val_two]
    show (((0 * 1 + 0) * 1 + 0) * 288 + k.val) * 64 + f.val = k.val * 64 + f.val; omega)

/-- WHAT POINT t WRITES BACK is block t of the specification's array of the two arguments. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [Cert.KernelIdeal.Value.flushed2, out_eq_stored, View.canon_unit_zero zero4]
  simp only [View.ld_unit_zero (S := S1x32x32x32) zero4, View.ld_unit_zero (S := S288x64) zero2]
  rw [stored_eq_GB]
  funext j
  obtain ⟨u, h, v, f, rfl⟩ : ∃ (u : Fin 1) (h v : Fin 30) (f : Fin 64), j = ix4 u h v f := ⟨j 0, j 1, j 2, j 3, eq_ix4 j⟩
  have hu : u = 0 := Subsingleton.elim _ _
  subst hu
  have hemb : ((cfg0.win 2).blk t).view.emb (ix4 (0 : Fin 1) h v f) = ix4 (Fin.cast N_0 t) h v f := by
    obtain ⟨-, -, -, -, -, -, e0, e1, e2, e3⟩ := idx_facts t
    funext a; apply Fin.ext
    match a with
    | ⟨0, _⟩ => show win0_2.index t (0 : Fin 4) * 1 + 1 * 0 = t.val; omega
    | ⟨1, _⟩ => show win0_2.index t (1 : Fin 4) * 30 + 1 * h.val = h.val; omega
    | ⟨2, _⟩ => show win0_2.index t (2 : Fin 4) * 30 + 1 * v.val = v.val; omega
    | ⟨3, _⟩ => show win0_2.index t (3 : Fin 4) * 64 + 1 * f.val = f.val; omega
  show GB (iblk m c 0 t) (iblk m c 1 t) (ix4 (0 : Fin 1) h v f)
    = G (m ((c : Thread nD τ).loc main_arg0)) (m ((c : Thread nD τ).loc main_arg1)) (((cfg0.win 2).blk t).view.emb (ix4 (0 : Fin 1) h v f))
  rw [hemb]
  exact GB_eq_G _ _ _ _ (Fin.cast N_0 t) (image_block m c t) (weight_block m c t) h v f

/-- An index of the result is in point t's block exactly when each coordinate is in the block's range on its axis. -/
theorem mem_blk (t : Fin cfg0.N) (i : S8x30x30x64.Idx) :
    i ∈ ((cfg0.win 2).blk t).view.set
      ↔ ∀ a : Fin 4, win0_2.index t a * S1x30x30x64.size a ≤ (i a).val ∧ (i a).val < win0_2.index t a * S1x30x30x64.size a + S1x30x30x64.size a := by
  show i ∈ ((View.whole main_v1).slice (win0_2.rect t)).set ↔ _
  rw [View.set_slice_whole, Rect.mem_set_unit]
  exact Iff.rfl

/-- The eight blocks cover the result: batch entry b lies in the block of point b. -/
theorem cover (i : S8x30x30x64.Idx) : ∃ t : Fin cfg0.N, (cfg0.win 2).flush t = true ∧ i ∈ ((cfg0.win 2).blk t).view.set := by
  have h1 : (i 1).val < 30 := (i 1).isLt
  have h2 : (i 2).val < 30 := (i 2).isLt
  have h3 : (i 3).val < 64 := (i 3).isLt
  refine ⟨Fin.cast N_0.symm (i 0), flush0_2 _, ?_⟩
  rw [mem_blk]
  obtain ⟨-, -, -, -, -, -, e0, e1, e2, e3⟩ := idx_facts (Fin.cast N_0.symm (i 0))
  have e0' : win0_2.index (Fin.cast N_0.symm (i 0)) (0 : Fin 4) = (i 0).val := e0
  intro a
  match a with
  | ⟨0, _⟩ =>
    show win0_2.index (Fin.cast N_0.symm (i 0)) (0 : Fin 4) * 1 ≤ (i 0).val ∧ (i 0).val < win0_2.index (Fin.cast N_0.symm (i 0)) (0 : Fin 4) * 1 + 1
    omega
  | ⟨1, _⟩ =>
    show win0_2.index (Fin.cast N_0.symm (i 0)) (1 : Fin 4) * 30 ≤ (i 1).val ∧ (i 1).val < win0_2.index (Fin.cast N_0.symm (i 0)) (1 : Fin 4) * 30 + 30
    omega
  | ⟨2, _⟩ =>
    show win0_2.index (Fin.cast N_0.symm (i 0)) (2 : Fin 4) * 30 ≤ (i 2).val ∧ (i 2).val < win0_2.index (Fin.cast N_0.symm (i 0)) (2 : Fin 4) * 30 + 30
    omega
  | ⟨3, _⟩ =>
    show win0_2.index (Fin.cast N_0.symm (i 0)) (3 : Fin 4) * 64 ≤ (i 3).val ∧ (i 3).val < win0_2.index (Fin.cast N_0.symm (i 0)) (3 : Fin 4) * 64 + 64
    omega

/-- THE RESULT ARRAY after the run is the specification's array of the two arguments. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) cover

/-- The kernel's run, read: every weakly fair execution ends with the result array at the specification's array of the
    arguments, and the arguments as they were. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.RefValue.lean ====
/-
  The reference program computes the specification.

  The reference takes the nine unit-stride windows of the image x : [8, 32, 32, 32] at the offsets (i, j), i, j < 3 — window
  n = 3 i + j is x[b, h + i, v + j, c] over (b, h, v, c) : [8, 30, 30, 32] —, joins them along the channel axis into
  [8, 30, 30, 288], adds the weights w[k, f] under the broadcast to [8, 30, 30, 288, 64], and folds the maximum from minus
  infinity and the minimum from plus infinity over the patch axis (axis 3); the result is the difference.

  Read at an index:
  * the joined array at (b, h, v, k) is window k / 32 at channel k % 32, that is x at row h + (k / 32) / 3 = h + k / 96,
    column v + (k / 32) % 3 and channel k % 32: the specification's patch position `src b h v k`;
  * the summand array at (b, h, v, k, f) is therefore x (src b h v k) + w[0, 0, 0, k, f], the specification's `term`;
  * a fold over ONE axis of a commutative and associative operation is the fold over that axis's coordinates, the result
    index with the coordinate inserted; inserting k on axis 3 of (b, h, v, f) gives (b, h, v, k, f), so the two folds run
    over the 288 terms, from the seeds the rank-0 constants hold: the words of minus and plus infinity.
-/
import proofs.«105936_j21947282883034_2_alg».proof.Proof.Gen.ReferenceIdeal.Read
import proofs.«105936_j21947282883034_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Cert.TropConv

variable {F : FTy → Type} [FloatOps F]

/-! ## The nine windows and their concatenation -/

/-- The offsets of the n-th shifted window: tap row n / 3, tap column n % 3. -/
def tapOff (n : Fin 9) : Fin S8x32x32x32.rank → Nat := ![0, n.val / 3, n.val % 3, 0]

/-- Every window lies inside the image: its offsets are at most 2 on the two 32-wide axes it narrows to 30. -/
theorem slices_tapOff (n : Fin 9) : S8x32x32x32.Slices (tapOff n) S8x30x30x32 :=
  ⟨rfl, fun a => by
    have hn := n.isLt
    match a with
    | ⟨0, _⟩ => show 0 + 8 ≤ 8; omega
    | ⟨1, _⟩ => show n.val / 3 + 30 ≤ 32; omega
    | ⟨2, _⟩ => show n.val % 3 + 30 ≤ 32; omega
    | ⟨3, _⟩ => show 0 + 32 ≤ 32; omega⟩

/-- The n-th shifted window of the image. -/
def tap (x : (⟨S8x32x32x32, .f32⟩ : BufTy).Contents (Elt F)) (n : Fin 9) : S8x30x30x32.Idx → F .f32 :=
  extractStridedSlice S8x30x30x32 (tapOff n) x (slices_tapOff n)

/-- The joined array is the concatenation, along axis 3, of the nine windows in the order n = 0, …, 8. -/
theorem val_main_v9_eq (x : (⟨S8x32x32x32, .f32⟩ : BufTy).Contents (Elt F)) :
    val_main_v9 (F := F) x = concatenate S8x30x30x288 3
      (List.ofFn fun n : Fin 9 => (⟨S8x30x30x32, tap x n⟩ : (s : Shape) × (s.Idx → F .f32)))
      concatenates_S8x30x30x32_S8x30x30x32_S8x30x30x32_S8x30x30x32_S8x30x30x32_S8x30x30x32_S8x30x30x32_S8x30x30x32_S8x30x30x32_S8x30x30x288_d3 := rfl

/-- The joined array at (b, h, v, k): window k / 32 at channel k % 32, that is, the image at row h + k / 96,
    column v + (k / 32) % 3, channel k % 32. -/
theorem val_main_v9_apply (x : (⟨S8x32x32x32, .f32⟩ : BufTy).Contents (Elt F)) (b : Fin 8) (h v : Fin 30) (k : Fin 288) :
    val_main_v9 (F := F) x (ix4 b h v k) = x (src b h v k) := by
  have hk := k.isLt
  rw [val_main_v9_eq]
  refine (concatenate_ofFn_apply (3 : Fin S8x30x30x288.rank) (tap x) _ rfl 32 rfl (ix4 b h v k)
    (⟨k.val / 32, by omega⟩ : Fin 9) rfl (ix4 b h v (⟨k.val % 32, by omega⟩ : Fin 32)) rfl (fun c hc => ?_)).trans ?_
  · match c with
    | ⟨0, _⟩ => rfl
    | ⟨1, _⟩ => rfl
    | ⟨2, _⟩ => rfl
    | ⟨3, _⟩ => exact absurd rfl hc
  · unfold tap
    refine extractStridedSlice_apply _ x _ _ (src b h v k) (fun a => ?_)
    match a with
    | ⟨0, _⟩ => show b.val = 0 + b.val; omega
    | ⟨1, _⟩ => show h.val + k.val / 96 = k.val / 32 / 3 + h.val; omega
    | ⟨2, _⟩ => show v.val + k.val / 32 % 3 = k.val / 32 % 3 + v.val; omega
    | ⟨3, _⟩ => show k.val % 32 = 0 + k.val % 32; omega

/-! ## The 288 terms -/

/-- The summand array at (b, h, v, k, f) is the k-th term of the specification at (b, h, v, f): on the image side the
    two broadcasts keep (b, h, v, k), where the joined array reads the patch position; on the weights side the
    broadcasts and the reshape keep (k, f). -/
theorem val_main_v15_apply_term (x : (⟨S8x32x32x32, .f32⟩ : BufTy).Contents (Elt Ideal))
    (w : (⟨S1x1x1x288x64, .f32⟩ : BufTy).Contents (Elt Ideal)) (b : Fin 8) (h v : Fin 30) (k : Fin 288) (f : Fin 64) :
    val_main_v15 (F := Ideal) x w (ix5 b h v k f) = term x w b h v f k := by
  have hk := k.isLt
  have hf := f.isLt
  have e1 : idx_main_v10 (idx_main_v13 (ix5 b h v k f)) = ix4 b h v k := by
    funext a
    match a with
    | ⟨0, _⟩ => rfl
    | ⟨1, _⟩ => rfl
    | ⟨2, _⟩ => rfl
    | ⟨3, _⟩ => rfl
  have e2 : idx_main_v11 (idx_main_v12 (idx_main_v14 (ix5 b h v k f)))
      = ix5 (0 : Fin 1) (0 : Fin 1) (0 : Fin 1) k f := by
    funext a
    match a with
    | ⟨0, _⟩ => rfl
    | ⟨1, _⟩ => rfl
    | ⟨2, _⟩ => rfl
    | ⟨3, _⟩ => exact Fin.ext (by show (k.val * 64 + f.val) / 64 % 288 = k.val; omega)
    | ⟨4, _⟩ => exact Fin.ext (by show (k.val * 64 + f.val) % 64 = f.val; omega)
  rw [val_main_v15_apply, val_main_v13_apply, val_main_v10_apply, e1, val_main_v9_apply, val_main_v14_apply,
    val_main_v12_apply, val_main_v11_apply, e2]
  rfl

/-! ## The two folds over the patch coordinate -/

/-- The result shape is the summand shape with the patch axis removed. -/
theorem reduces_d3 : S8x30x30x288x64.Reduces [3] S8x30x30x64 := by decide

/-- Inserting patch coordinate k into (b, h, v, f) on axis 3 gives (b, h, v, k, f). -/
theorem lift_eq (b : Fin 8) (h v : Fin 30) (f : Fin 64) (k : Fin 288) :
    reduces_d3.lift (ix4 b h v f) k = ix5 b h v k f := by
  funext a
  match a with
  | ⟨0, _⟩ => rfl
  | ⟨1, _⟩ => rfl
  | ⟨2, _⟩ => rfl
  | ⟨3, _⟩ => rfl
  | ⟨4, _⟩ => rfl

/-- The summand array along the patch axis over (b, h, v, f) is the family of the 288 terms. -/
theorem v15_comp_lift (x : (⟨S8x32x32x32, .f32⟩ : BufTy).Contents (Elt Ideal))
    (w : (⟨S1x1x1x288x64, .f32⟩ : BufTy).Contents (Elt Ideal)) (b : Fin 8) (h v : Fin 30) (f : Fin 64) :
    (val_main_v15 (F := Ideal) x w ∘ reduces_d3.lift (ix4 b h v f)) = term x w b h v f := by
  have key : ∀ k : Fin 288, val_main_v15 (F := Ideal) x w (reduces_d3.lift (ix4 b h v f) k) = term x w b h v f k :=
    fun k => by rw [lift_eq, val_main_v15_apply_term]
  exact funext key

/-- The maximum over the patch axis at (b, h, v, f): the fold of max from minus infinity over the 288 terms. -/
theorem val_main_v16_apply (x : (⟨S8x32x32x32, .f32⟩ : BufTy).Contents (Elt Ideal))
    (w : (⟨S1x1x1x288x64, .f32⟩ : BufTy).Contents (Elt Ideal)) (b : Fin 8) (h v : Fin 30) (f : Fin 64) :
    val_main_v16 (F := Ideal) x w (ix4 b h v f)
      = (Finset.univ : Finset (Fin 288)).fold FloatOps.maximumf negInf (term x w b h v f) := by
  unfold val_main_v16
  rw [Host.reduce_eq_fold_single FloatOps.maximumf _ _ reducesTo_S8x30x30x288x64_S8x30x30x64_d3 reduces_d3 h_S_
    (ix4 b h v f), v15_comp_lift]
  rfl

/-- The minimum over the patch axis at (b, h, v, f): the fold of min from plus infinity over the 288 terms. -/
theorem val_main_v17_apply (x : (⟨S8x32x32x32, .f32⟩ : BufTy).Contents (Elt Ideal))
    (w : (⟨S1x1x1x288x64, .f32⟩ : BufTy).Contents (Elt Ideal)) (b : Fin 8) (h v : Fin 30) (f : Fin 64) :
    val_main_v17 (F := Ideal) x w (ix4 b h v f)
      = (Finset.univ : Finset (Fin 288)).fold FloatOps.minimumf posInf (term x w b h v f) := by
  unfold val_main_v17
  rw [Host.reduce_eq_fold_single FloatOps.minimumf _ _ reducesTo_S8x30x30x288x64_S8x30x30x64_d3 reduces_d3 h_S_
    (ix4 b h v f), v15_comp_lift]
  rfl

/-! ## The reference computes the specification -/

/-- At every (b, h, v, f) the reference's result is the largest of the 288 terms less the smallest. -/
theorem ref_eq_G (x : (⟨Cert.ReferenceIdeal.S8x32x32x32, .f32⟩ : BufTy).Contents (Elt Ideal)) (w : (⟨Cert.ReferenceIdeal.S1x1x1x288x64, .f32⟩ : BufTy).Contents (Elt Ideal)) :
    Cert.ReferenceIdeal.Read.val_main_v18 (F := Ideal) x w = Cert.TropConv.G x w := by
  funext y
  obtain ⟨b, h, v, f, rfl⟩ : ∃ b h v f, y = ix4 b h v f := ⟨y 0, y 1, y 2, y 3, eq_ix4 y⟩
  rw [val_main_v18_apply, val_main_v16_apply, val_main_v17_apply]
  rfl

end Cert.ReferenceIdeal.RefValue

end
-- ==== Proof.lean ====
/-
  A max-plus / min-plus 3x3 convolution (stride 1, no padding) as a Pallas kernel against its jnp reference.

  Both programs compute, at every (b, h, v, f) of an [8, 30, 30, 64] result,
      max over k < 288 of (x[b, h + i, v + j, c] + w[k, f])  less  min over k < 288 of the same terms,
  k = 96 i + 32 j + c running over the nine taps (i, j) and the 32 channels c (Proof/Spec.lean: the function G).

  The reference forms the 288 terms as one [8, 30, 30, 288, 64] array — nine shifted windows of the image joined along the
  channels, plus the broadcast weights — and reduces its patch axis twice, by max from minus infinity and by min from plus
  infinity (Proof/RefValue.lean, over the generated run of the reference and its read-at-an-index lemmas).

  The kernel handles one batch entry per grid point. Its body is a loop unrolled 144 times: each step takes one tap and
  one PAIR of channels, packs the two [30, 30, 64] sums side by side into the 128 lanes and takes the running maximum and
  minimum of [30, 30, 128] accumulators; at the end the two lane halves are folded together. Proof/Rolled.lean states the
  loop rolled up and shows the body's store is the rolled-up value; Proof/KernelValue.lean reads one step at an index and
  carries the accumulators by their universal property through an induction on the number of steps; Proof/Stored.lean
  concludes that a grid point stores the specification's block; Proof/Blocks.lean passes from the eight blocks to the array.

  The two sides take their maxima in different orders and groupings (the kernel: even and odd patch coordinates apart, then
  together); on the extended reals max and min are a lattice, so the order does not matter, and no finiteness of the inputs
  is used. The two programs' only literals are the words of minus and plus infinity, the same on both sides.
  The kernel's idealization rewrote nothing, so there is nothing to preserve beyond the program's own text.
-/
import proofs.«105936_j21947282883034_2_alg».proof.Defs
import proofs.«105936_j21947282883034_2_alg».proof.Proof.Gen.Kernel
import proofs.«105936_j21947282883034_2_alg».proof.Proof.Gen.Kernel.Skeleton
import proofs.«105936_j21947282883034_2_alg».proof.Proof.Gen.Kernel.Launch
import proofs.«105936_j21947282883034_2_alg».proof.Proof.Gen.Kernel.Points
import proofs.«105936_j21947282883034_2_alg».proof.Proof.Gen.Kernel.Frame
import proofs.«105936_j21947282883034_2_alg».proof.Proof.Gen.KernelIdeal
import proofs.«105936_j21947282883034_2_alg».proof.Proof.Gen.KernelIdeal.Skeleton
import proofs.«105936_j21947282883034_2_alg».proof.Proof.Gen.KernelIdeal.Launch
import proofs.«105936_j21947282883034_2_alg».proof.Proof.Gen.KernelIdeal.Points
import proofs.«105936_j21947282883034_2_alg».proof.Proof.Gen.KernelIdeal.Frame
import proofs.«105936_j21947282883034_2_alg».proof.Proof.Gen.KernelIdeal.Value
import proofs.«105936_j21947282883034_2_alg».proof.Proof.Gen.ReferenceIdeal
import proofs.«105936_j21947282883034_2_alg».proof.Proof.Gen.ReferenceIdeal.Run
import proofs.«105936_j21947282883034_2_alg».proof.Proof.Gen.ReferenceIdeal.Read
import proofs.«105936_j21947282883034_2_alg».proof.Proof.Gen.Pre_finite_inputs
import proofs.«105936_j21947282883034_2_alg».proof.Proof.Blocks
import proofs.«105936_j21947282883034_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the image and the weights, both programs end with the specification's array G of
    those arguments: the kernel by its run read block by block, the reference by its run read operation by operation. -/
theorem algebraic : Cert.algebraic_KernelIdeal_ReferenceIdeal := by
  intro m ρ m' ρ' _ hagree
  refine ⟨fun c => Cert.TropConv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_G, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
